-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S131072x256 : Shape := ⟨2, ![131072, 256]⟩
abbrev S65536 : Shape := ⟨1, ![65536]⟩
abbrev S131072 : Shape := ⟨1, ![131072]⟩
abbrev S256 : Shape := ⟨1, ![256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S131072x256 : S_.BroadcastsInDim S131072x256 (![] : Fin 0 → Fin S131072x256.rank)
  reducesTo_S131072x256_S_d0_1 : S131072x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S65536x256 .f32) (main_arg1 : FVec F S131072x256 .f32) (main_arg2 : IVec S65536 32) (main_arg3 : IVec S131072 32) (main_arg4 : FVec F S256 .f32) (main_arg5 : FVec F S256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S65536x256 : Shape := ⟨2, ![65536, 256]⟩
abbrev S131072x256 : Shape := ⟨2, ![131072, 256]⟩
abbrev S65536 : Shape := ⟨1, ![65536]⟩
abbrev S131072 : Shape := ⟨1, ![131072]⟩
abbrev S256 : Shape := ⟨1, ![256]⟩
abbrev S1024x64x256 : Shape := ⟨3, ![1024, 64, 256]⟩
abbrev S1024x128x256 : Shape := ⟨3, ![1024, 128, 256]⟩
abbrev S1024x64x512 : Shape := ⟨3, ![1024, 64, 512]⟩
abbrev S1024x128x512 : Shape := ⟨3, ![1024, 128, 512]⟩
abbrev S16x64x256 : Shape := ⟨3, ![16, 64, 256]⟩
abbrev S16x128x256 : Shape := ⟨3, ![16, 128, 256]⟩
abbrev S16x64x512 : Shape := ⟨3, ![16, 64, 512]⟩
abbrev S16x128x512 : Shape := ⟨3, ![16, 128, 512]⟩
abbrev S16x64x128 : Shape := ⟨3, ![16, 64, 128]⟩
abbrev S16x64 : Shape := ⟨2, ![16, 64]⟩
abbrev S16x64x1 : Shape := ⟨3, ![16, 64, 1]⟩
abbrev S1x1x256 : Shape := ⟨3, ![1, 1, 256]⟩
abbrev S16x128 : Shape := ⟨2, ![16, 128]⟩
abbrev S16x128x1 : Shape := ⟨3, ![16, 128, 1]⟩
abbrev S65536x512 : Shape := ⟨2, ![65536, 512]⟩
abbrev S131072x512 : Shape := ⟨2, ![131072, 512]⟩

abbrev nBuf : Space → Nat
  | .hbm => 12
  | .vmem => 10
  | .smem => 0
  | _ => 0

abbrev bufTy : (tb : Table) → Fin (tcTables nBuf tb) → BufTy
  | .hbm, ⟨0, _⟩ => ⟨S65536x256, .f32⟩
  | .hbm, ⟨1, _⟩ => ⟨S131072x256, .f32⟩
  | .hbm, ⟨2, _⟩ => ⟨S65536, .i32⟩
  | .hbm, ⟨3, _⟩ => ⟨S131072, .i32⟩
  | .hbm, ⟨4, _⟩ => ⟨S256, .f32⟩
  | .hbm, ⟨5, _⟩ => ⟨S256, .f32⟩
  | .hbm, ⟨6, _⟩ => ⟨S1024x64x256, .f32⟩
  | .hbm, ⟨7, _⟩ => ⟨S1024x128x256, .f32⟩
  | .hbm, ⟨8, _⟩ => ⟨S1024x64x512, .f32⟩
  | .hbm, ⟨9, _⟩ => ⟨S1024x128x512, .f32⟩
  | .hbm, ⟨10, _⟩ => ⟨S65536x512, .f32⟩
  | .hbm, ⟨11, _⟩ => ⟨S131072x512, .f32⟩
  | .local _ .vmem, ⟨0, _⟩ => ⟨S16x64x256, .f32⟩
  | .local _ .vmem, ⟨1, _⟩ => ⟨S16x64x256, .f32⟩
  | .local _ .vmem, ⟨2, _⟩ => ⟨S16x128x256, .f32⟩
  | .local _ .vmem, ⟨3, _⟩ => ⟨S16x128x256, .f32⟩
  | .local _ .vmem, ⟨4, _⟩ => ⟨S256, .f32⟩
  | .local _ .vmem, ⟨5, _⟩ => ⟨S256, .f32⟩
  | .local _ .vmem, ⟨6, _⟩ => ⟨S16x64x512, .f32⟩
  | .local _ .vmem, ⟨7, _⟩ => ⟨S16x64x512, .f32⟩
  | .local _ .vmem, ⟨8, _⟩ => ⟨S16x128x512, .f32⟩
  | .local _ .vmem, ⟨9, _⟩ => ⟨S16x128x512, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S65536x256_S1024x64x256 : S65536x256.ShapeCasts S1024x64x256
  shapeCasts_S131072x256_S1024x128x256 : S131072x256.ShapeCasts S1024x128x256
  inb_S16x64x256_S16x64x256_0_0_0 : ∀ a, (![0, 0, 0] : Fin 3 → Nat) a + S16x64x256.size a ≤ S16x64x256.size a
  h_S16x64x256 : 0 < S16x64x256.numel
  shapeCasts_S16x64x256_S16x64x256 : S16x64x256.ShapeCasts S16x64x256
  inb_S16x64x512_S16x64x256_0_0_0 : ∀ a, (![0, 0, 0] : Fin 3 → Nat) a + S16x64x256.size a ≤ S16x64x512.size a
  bitsLt_bf16_f32 : FTy.bits .bf16 < FTy.bits .f32
  inb_S16x128x256_S16x128x256_0_0_0 : ∀ a, (![0, 0, 0] : Fin 3 → Nat) a + S16x128x256.size a ≤ S16x128x256.size a
  h_S16x128x256 : 0 < S16x128x256.numel
  shapeCasts_S16x128x256_S16x128x256 : S16x128x256.ShapeCasts S16x128x256
  inb_S16x128x512_S16x128x256_0_0_0 : ∀ a, (![0, 0, 0] : Fin 3 → Nat) a + S16x128x256.size a ≤ S16x128x512.size a
  inb_S256_S256_0 : ∀ a, (![0] : Fin 1 → Nat) a + S256.size a ≤ S256.size a
  h_S256 : 0 < S256.numel
  reduces_S16x64x256_S16x64 : S16x64x256.Reduces [2] S16x64
  shapeCasts_S16x64_S16x64x1 : S16x64.ShapeCasts S16x64x1
  broadcasts_S16x64x1_S16x64x256 : S16x64x1.Broadcasts S16x64x256
  shapeCasts_S256_S1x1x256 : S256.ShapeCasts S1x1x256
  broadcasts_S1x1x256_S16x64x256 : S1x1x256.Broadcasts S16x64x256
  inb_S16x64x512_S16x64x256_0_0_256 : ∀ a, (![0, 0, 256] : Fin 3 → Nat) a + S16x64x256.size a ≤ S16x64x512.size a
  reduces_S16x128x256_S16x128 : S16x128x256.Reduces [2] S16x128
  shapeCasts_S16x128_S16x128x1 : S16x128.ShapeCasts S16x128x1
  broadcasts_S16x128x1_S16x128x256 : S16x128x1.Broadcasts S16x128x256
  broadcasts_S1x1x256_S16x128x256 : S1x1x256.Broadcasts S16x128x256
  inb_S16x128x512_S16x128x256_0_0_256 : ∀ a, (![0, 0, 256] : Fin 3 → Nat) a + S16x128x256.size a ≤ S16x128x512.size a
  shapeCasts_S1024x64x512_S65536x512 : S1024x64x512.ShapeCasts S65536x512
  shapeCasts_S1024x128x512_S131072x512 : S1024x128x512.ShapeCasts S131072x512
  dot_S16x64x256_S16x128x256_S16x64x128_2_2_1_1_0_0_wf : DotDims.WF S16x64x256 S16x128x256 S16x64x128 [2] [2] [1] [1] [0] [0]
  dot_S16x64x128_S16x128x256_S16x64x256_2_1_1_2_0_0_wf : DotDims.WF S16x64x128 S16x128x256 S16x64x256 [2] [1] [1] [2] [0] [0]
  dot_S16x64x128_S16x64x256_S16x128x256_1_1_2_2_0_0_wf : DotDims.WF S16x64x128 S16x64x256 S16x128x256 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x256.size a ≤ S1024x64x256.size a
  hwx0_0 : ∀ i : grid0.Coords, EltTy.bits .f32 = 32 ∨ (Rect.block (s := S1024x64x256) S16x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x256.size a ≤ S1024x128x256.size a
  hwx0_1 : ∀ i : grid0.Coords, EltTy.bits .f32 = 32 ∨ (Rect.block (s := S1024x128x256) S16x128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x64x512.size a ≤ S1024x64x512.size a
  hwx0_4 : ∀ i : grid0.Coords, EltTy.bits .f32 = 32 ∨ (Rect.block (s := S1024x64x512) S16x64x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x128x512.size a ≤ S1024x128x512.size a
  hwx0_5 : ∀ i : grid0.Coords, EltTy.bits .f32 = 32 ∨ (Rect.block (s := S1024x128x512) S16x128x512.size (cc0_transform_5 i) (hinb0_5 i)).WholeWords (EltTy.packing .f32)

variable [Facts₀]

def dot_S16x64x256_S16x128x256_S16x64x128_2_2_1_1_0_0 : DotDims S16x64x256 S16x128x256 S16x64x128 where
  lhsContracting := [2]
  rhsContracting := [2]
  lhsNonContracting := [1]
  rhsNonContracting := [1]
  lhsBatch := [0]
  rhsBatch := [0]
  wf := dot_S16x64x256_S16x128x256_S16x64x128_2_2_1_1_0_0_wf
def dot_S16x64x128_S16x128x256_S16x64x256_2_1_1_2_0_0 : DotDims S16x64x128 S16x128x256 S16x64x256 where
  lhsContracting := [2]
  rhsContracting := [1]
  lhsNonContracting := [1]
  rhsNonContracting := [2]
  lhsBatch := [0]
  rhsBatch := [0]
  wf := dot_S16x64x128_S16x128x256_S16x64x256_2_1_1_2_0_0_wf
def dot_S16x64x128_S16x64x256_S16x128x256_1_1_2_2_0_0 : DotDims S16x64x128 S16x64x256 S16x128x256 where
  lhsContracting := [1]
  rhsContracting := [1]
  lhsNonContracting := [2]
  rhsNonContracting := [2]
  lhsBatch := [0]
  rhsBatch := [0]
  wf := dot_S16x64x128_S16x64x256_S16x128x256_1_1_2_2_0_0_wf

abbrev win0_0 : Pipeline.Window sig grid0 :=
  Pipeline.Window.ofSpec (Memref.whole main_v0) S16x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S16x64x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S16x128x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x256 : Shape := ⟨2, ![65536, 256]⟩
abbrev S131072x256 : Shape := ⟨2, ![131072, 256]⟩
abbrev S65536 : Shape := ⟨1, ![65536]⟩
abbrev S131072 : Shape := ⟨1, ![131072]⟩
abbrev S256 : Shape := ⟨1, ![256]⟩
abbrev S1024x64x256 : Shape := ⟨3, ![1024, 64, 256]⟩
abbrev S1024x128x256 : Shape := ⟨3, ![1024, 128, 256]⟩
abbrev S1024x64x128 : Shape := ⟨3, ![1024, 64, 128]⟩
abbrev S_ : Shape := ⟨0, ![]⟩
abbrev S1024x64 : Shape := ⟨2, ![1024, 64]⟩
abbrev S1024x64x1 : Shape := ⟨3, ![1024, 64, 1]⟩
abbrev S1x1x256 : Shape := ⟨3, ![1, 1, 256]⟩
abbrev S1024x128 : Shape := ⟨2, ![1024, 128]⟩
abbrev S1024x128x1 : Shape := ⟨3, ![1024, 128, 1]⟩
abbrev S1024x64x512 : Shape := ⟨3, ![1024, 64, 512]⟩
abbrev S65536x512 : Shape := ⟨2, ![65536, 512]⟩
abbrev S1024x128x512 : Shape := ⟨3, ![1024, 128, 512]⟩
abbrev S131072x512 : Shape := ⟨2, ![131072, 512]⟩

abbrev nBuf : Space → Nat
  | .hbm => 84
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S131072x256, .f32⟩
  | .hbm, ⟨2, _⟩ => ⟨S65536, .i32⟩
  | .hbm, ⟨3, _⟩ => ⟨S131072, .i32⟩
  | .hbm, ⟨4, _⟩ => ⟨S256, .f32⟩
  | .hbm, ⟨5, _⟩ => ⟨S256, .f32⟩
  | .hbm, ⟨6, _⟩ => ⟨S1024x64x256, .f32⟩
  | .hbm, ⟨7, _⟩ => ⟨S1024x128x256, .f32⟩
  | .hbm, ⟨8, _⟩ => ⟨S1024x64x128, .f32⟩
  | .hbm, ⟨9, _⟩ => ⟨S_, .f32⟩
  | .hbm, ⟨10, _⟩ => ⟨S1024x64x128, .f32⟩
  | .hbm, ⟨11, _⟩ => ⟨S1024x64x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1024x64x128, .f32⟩
  | .hbm, ⟨16, _⟩ => ⟨S1024x64x128, .f32⟩
  | .hbm, ⟨17, _⟩ => ⟨S_, .f32⟩
  | .hbm, ⟨18, _⟩ => ⟨S1024x64x128, .f32⟩
  | .hbm, ⟨19, _⟩ => ⟨S1024x64x128, .f32⟩
  | .hbm, ⟨20, _⟩ => ⟨S1024x64x256, .f32⟩
  | .hbm, ⟨21, _⟩ => ⟨S_, .f32⟩
  | .hbm, ⟨22, _⟩ => ⟨S1024x64, .f32⟩
  | .hbm, ⟨23, _⟩ => ⟨S1024x64x1, .f32⟩
  | .hbm, ⟨24, _⟩ => ⟨S_, .f32⟩
  | .hbm, ⟨25, _⟩ => ⟨S1024x64x1, .f32⟩
  | .hbm, ⟨26, _⟩ => ⟨S1024x64x1, .f32⟩
  | .hbm, ⟨27, _⟩ => ⟨S1024x64x256, .f32⟩
  | .hbm, ⟨28, _⟩ => ⟨S1024x64x256, .f32⟩
  | .hbm, ⟨29, _⟩ => ⟨S1024x64x256, .f32⟩
  | .hbm, ⟨30, _⟩ => ⟨S_, .f32⟩
  | .hbm, ⟨31, _⟩ => ⟨S1024x64, .f32⟩
  | .hbm, ⟨32, _⟩ => ⟨S1024x64x1, .f32⟩
  | .hbm, ⟨33, _⟩ => ⟨S_, .f32⟩
  | .hbm, ⟨34, _⟩ => ⟨S1024x64x1, .f32⟩
  | .hbm, ⟨35, _⟩ => ⟨S1024x64x1, .f32⟩
  | .hbm, ⟨36, _⟩ => ⟨S1024x64x256, .f32⟩
  | .hbm, ⟨37, _⟩ => ⟨S1024x64x256, .f32⟩
  | .hbm, ⟨38, _⟩ => ⟨S_, .f32⟩
  | .hbm, ⟨39, _⟩ => ⟨S1024x64x1, .f32⟩
  | .hbm, ⟨40, _⟩ => ⟨S1024x64x1, .f32⟩
  | .hbm, ⟨41, _⟩ => ⟨S1024x64x1, .f32⟩
  | .hbm, ⟨42, _⟩ => ⟨S1024x64x256, .f32⟩
  | .hbm, ⟨43, _⟩ => ⟨S1024x64x256, .f32⟩
  | .hbm, ⟨44, _⟩ => ⟨S1x1x256, .f32⟩
  | .hbm, ⟨45, _⟩ => ⟨S1024x64x256, .f32⟩
  | .hbm, ⟨46, _⟩ => ⟨S1024x64x256, .f32⟩
  | .hbm, ⟨47, _⟩ => ⟨S1x1x256, .f32⟩
  | .hbm, ⟨48, _⟩ => ⟨S1024x64x256, .f32⟩
  | .hbm, ⟨49, _⟩ => ⟨S1024x64x256, .f32⟩
  | .hbm, ⟨50, _⟩ => ⟨S1024x128x256, .f32⟩
  | .hbm, ⟨51, _⟩ => ⟨S_, .f32⟩
  | .hbm, ⟨52, _⟩ => ⟨S1024x128, .f32⟩
  | .hbm, ⟨53, _⟩ => ⟨S1024x128x1, .f32⟩
  | .hbm, ⟨54, _⟩ => ⟨S_, .f32⟩
  | .hbm, ⟨55, _⟩ => ⟨S1024x128x1, .f32⟩
  | .hbm, ⟨56, _⟩ => ⟨S1024x128x1, .f32⟩
  | .hbm, ⟨57, _⟩ => ⟨S1024x128x256, .f32⟩
  | .hbm, ⟨58, _⟩ => ⟨S1024x128x256, .f32⟩
  | .hbm, ⟨59, _⟩ => ⟨S1024x128x256, .f32⟩
  | .hbm, ⟨60, _⟩ => ⟨S_, .f32⟩
  | .hbm, ⟨61, _⟩ => ⟨S1024x128, .f32⟩
  | .hbm, ⟨62, _⟩ => ⟨S1024x128x1, .f32⟩
  | .hbm, ⟨63, _⟩ => ⟨S_, .f32⟩
  | .hbm, ⟨64, _⟩ => ⟨S1024x128x1, .f32⟩
  | .hbm, ⟨65, _⟩ => ⟨S1024x128x1, .f32⟩
  | .hbm, ⟨66, _⟩ => ⟨S1024x128x256, .f32⟩
  | .hbm, ⟨67, _⟩ => ⟨S1024x128x256, .f32⟩
  | .hbm, ⟨68, _⟩ => ⟨S_, .f32⟩
  | .hbm, ⟨69, _⟩ => ⟨S1024x128x1, .f32⟩
  | .hbm, ⟨70, _⟩ => ⟨S1024x128x1, .f32⟩
  | .hbm, ⟨71, _⟩ => ⟨S1024x128x1, .f32⟩
  | .hbm, ⟨72, _⟩ => ⟨S1024x128x256, .f32⟩
  | .hbm, ⟨73, _⟩ => ⟨S1024x128x256, .f32⟩
  | .hbm, ⟨74, _⟩ => ⟨S1x1x256, .f32⟩
  | .hbm, ⟨75, _⟩ => ⟨S1024x128x256, .f32⟩
  | .hbm, ⟨76, _⟩ => ⟨S1024x128x256, .f32⟩
  | .hbm, ⟨77, _⟩ => ⟨S1x1x256, .f32⟩
  | .hbm, ⟨78, _⟩ => ⟨S1024x128x256, .f32⟩
  | .hbm, ⟨79, _⟩ => ⟨S1024x128x256, .f32⟩
  | .hbm, ⟨80, _⟩ => ⟨S1024x64x512, .f32⟩
  | .hbm, ⟨81, _⟩ => ⟨S65536x512, .f32⟩
  | .hbm, ⟨82, _⟩ => ⟨S1024x128x512, .f32⟩
  | .hbm, ⟨83, _⟩ => ⟨S131072x512, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_cst_5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_6 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  shapeCasts_S65536x256_S1024x64x256 : S65536x256.ShapeCasts S1024x64x256
  shapeCasts_S131072x256_S1024x128x256 : S131072x256.ShapeCasts S1024x128x256
  bcast_S_S1024x64x128 : S_.BroadcastsInDim S1024x64x128 (![] : Fin 0 → Fin S1024x64x128.rank)
  reducesTo_S1024x64x256_S1024x64_d2 : S1024x64x256.ReducesTo [2] S1024x64
  h_S_ : 0 < S_.numel
  bcast_S1024x64_S1024x64x1_0_1 : S1024x64.BroadcastsInDim S1024x64x1 (![0, 1] : Fin 2 → Fin S1024x64x1.rank)
  bcast_S_S1024x64x1 : S_.BroadcastsInDim S1024x64x1 (![] : Fin 0 → Fin S1024x64x1.rank)
  bcast_S1024x64x1_S1024x64x256_0_1_2 : S1024x64x1.BroadcastsInDim S1024x64x256 (![0, 1, 2] : Fin 3 → Fin S1024x64x256.rank)
  bcast_S256_S1x1x256_2 : S256.BroadcastsInDim S1x1x256 (![2] : Fin 1 → Fin S1x1x256.rank)
  bcast_S1x1x256_S1024x64x256_0_1_2 : S1x1x256.BroadcastsInDim S1024x64x256 (![0, 1, 2] : Fin 3 → Fin S1024x64x256.rank)
  reducesTo_S1024x128x256_S1024x128_d2 : S1024x128x256.ReducesTo [2] S1024x128
  bcast_S1024x128_S1024x128x1_0_1 : S1024x128.BroadcastsInDim S1024x128x1 (![0, 1] : Fin 2 → Fin S1024x128x1.rank)
  bcast_S_S1024x128x1 : S_.BroadcastsInDim S1024x128x1 (![] : Fin 0 → Fin S1024x128x1.rank)
  bcast_S1024x128x1_S1024x128x256_0_1_2 : S1024x128x1.BroadcastsInDim S1024x128x256 (![0, 1, 2] : Fin 3 → Fin S1024x128x256.rank)
  bcast_S1x1x256_S1024x128x256_0_1_2 : S1x1x256.BroadcastsInDim S1024x128x256 (![0, 1, 2] : Fin 3 → Fin S1024x128x256.rank)
  concatenates_S1024x64x256_S1024x64x256_S1024x64x512_d2 : Shape.Concatenates [S1024x64x256, S1024x64x256] S1024x64x512 2
  shapeCasts_S1024x64x512_S65536x512 : S1024x64x512.ShapeCasts S65536x512
  concatenates_S1024x128x256_S1024x128x256_S1024x128x512_d2 : Shape.Concatenates [S1024x128x256, S1024x128x256] S1024x128x512 2
  shapeCasts_S1024x128x512_S131072x512 : S1024x128x512.ShapeCasts S131072x512
  dot_S1024x64x256_S1024x128x256_S1024x64x128_2_2_1_1_0_0_wf : DotDims.WF S1024x64x256 S1024x128x256 S1024x64x128 [2] [2] [1] [1] [0] [0]
  dot_S1024x64x128_S1024x128x256_S1024x64x256_2_1_1_2_0_0_wf : DotDims.WF S1024x64x128 S1024x128x256 S1024x64x256 [2] [1] [1] [2] [0] [0]
  dot_S1024x64x128_S1024x64x256_S1024x128x256_1_1_2_2_0_0_wf : DotDims.WF S1024x64x128 S1024x64x256 S1024x128x256 [1] [1] [2] [2] [0] [0]

variable [Facts₀]

def dot_S1024x64x256_S1024x128x256_S1024x64x128_2_2_1_1_0_0 : DotDims S1024x64x256 S1024x128x256 S1024x64x128 where
  lhsContracting := [2]
  rhsContracting := [2]
  lhsNonContracting := [1]
  rhsNonContracting := [1]
  lhsBatch := [0]
  rhsBatch := [0]
  wf := dot_S1024x64x256_S1024x128x256_S1024x64x128_2_2_1_1_0_0_wf
def dot_S1024x64x128_S1024x128x256_S1024x64x256_2_1_1_2_0_0 : DotDims S1024x64x128 S1024x128x256 S1024x64x256 where
  lhsContracting := [2]
  rhsContracting := [1]
  lhsNonContracting := [1]
  rhsNonContracting := [2]
  lhsBatch := [0]
  rhsBatch := [0]
  wf := dot_S1024x64x128_S1024x128x256_S1024x64x256_2_1_1_2_0_0_wf
def dot_S1024x64x128_S1024x64x256_S1024x128x256_1_1_2_2_0_0 : DotDims S1024x64x128 S1024x64x256 S1024x128x256 where
  lhsContracting := [1]
  rhsContracting := [1]
  lhsNonContracting := [2]
  rhsNonContracting := [2]
  lhsBatch := [0]
  rhsBatch := [0]
  wf := dot_S1024x64x128_S1024x64x256_S1024x128x256_1_1_2_2_0_0_wf

class Facts : Prop extends Facts₀ where

variable [Facts]
-- ==== Proof.Spec.lean ====
/-
  What both programs compute, as plain mathematics on the extended reals.

  A batch holds B pairs of graphs: graph b has 64 "solute" rows a b n ∈ ℝ^256 and 128 "solvent" rows
  c b m ∈ ℝ^256.  For one pair (a, c):
    score  n m = ∑ d, a n d · c m d                      the affinity of row n with row m
    weight n m = min 10 (max (-10) (score n m · 1/16))    scaled by 1/√256 and clipped
    gathered₁ n d = ∑ m, weight n m · c m d              each solute row gathers the solvent rows
    gathered₂ m d = ∑ n, weight n m · a n d              each solvent row gathers the solute rows
  and every gathered row x ∈ ℝ^256 is layer-normalised,
    layerNorm γ β x d = (x d − μ) · (σ² + ε)^(-1/2) · γ d + β d,   μ = (∑ x)/256,  σ² = (∑ (x − μ)²)/256.
  The result for a row is the row itself (columns 0…255) followed by its normalised gathered row
  (columns 256…511).

  The five float literals are kept as their binary32 words: both programs carry the same words, so no
  proof below ever needs their numerical values.  Everything is stated for any batch size B, so that
  ONE function describes both a tile of 16 pairs and the whole array of 1024 pairs; a tile of the
  whole is then the function at the tile's own rows (`enhanced₁_congr`, `enhanced₂_congr`).
-/
import Idealize.ShloMosaic.PureOps.Ideal
import Idealize.ShloMosaic.Lib.ValueIdx

noncomputable section

namespace Cert.Interaction

open Idealize.ShloMosaic Idealize.ShloMosaic.ValueIdx

/-- 1/16 = 1/√256, the scale of the affinities. -/
abbrev scale : EReal := Ideal.ofBits .f32 0x3D800000#32
/-- −10 and 10, the clipping bounds. -/
abbrev lo : EReal := Ideal.ofBits .f32 0xC1200000#32
abbrev hi : EReal := Ideal.ofBits .f32 0x41200000#32
/-- 256, the length of a feature row (the divisor of the mean and of the variance). -/
abbrev width : EReal := Ideal.ofBits .f32 0x43800000#32
/-- The layer norm's ε (the binary32 value nearest 10⁻⁵). -/
abbrev eps : EReal := Ideal.ofBits .f32 0x3727C5AC#32

section OnePair

variable {N M D : Nat}

/-- The affinity of solute row n with solvent row m: their inner product. -/
def score (a : Fin N → Fin D → EReal) (c : Fin M → Fin D → EReal) (n : Fin N) (m : Fin M) : EReal :=
  ∑ d : Fin D, a n d * c m d

/-- The affinity scaled and clipped to [−10, 10]. -/
def weight (a : Fin N → Fin D → EReal) (c : Fin M → Fin D → EReal) (n : Fin N) (m : Fin M) : EReal :=
  min hi (max lo (score a c n m * scale))

/-- Solute row n gathers the solvent rows by its weights. -/
def gathered₁ (a : Fin N → Fin D → EReal) (c : Fin M → Fin D → EReal) (n : Fin N) (d : Fin D) : EReal :=
  ∑ m : Fin M, weight a c n m * c m d

/-- Solvent row m gathers the solute rows by the same weights, transposed. -/
def gathered₂ (a : Fin N → Fin D → EReal) (c : Fin M → Fin D → EReal) (m : Fin M) (d : Fin D) : EReal :=
  ∑ n : Fin N, weight a c n m * a n d

/-- The mean of a row. -/
def mean (x : Fin D → EReal) : EReal := Ideal.div (∑ k : Fin D, x k) width

/-- Its (biased) variance. -/
def variance (x : Fin D → EReal) : EReal :=
  Ideal.div (∑ k : Fin D, (x k - mean x) * (x k - mean x)) width

/-- The layer norm of a row with gain γ and bias β. -/
def layerNorm (γ β x : Fin D → EReal) (d : Fin D) : EReal :=
  (x d - mean x) * Ideal.rsqrt (variance x + eps) * γ d + β d

end OnePair

/-- A row of the result: the row's own 256 features, then its 256 normalised gathered features. -/
def joined (own gath : Fin 256 → EReal) (j : Fin 512) : EReal :=
  if h : j.val < 256 then own ⟨j.val, h⟩ else gath ⟨j.val - 256, by have := j.isLt; omega⟩

/-- A column j = d < 256 of a joined row is the row's own feature d. -/
theorem joined_left (own gath : Fin 256 → EReal) (d : Fin 256) (j : Fin 512) (h : j.val = d.val) :
    joined own gath j = own d := by
  unfold joined
  rw [dif_pos (by have := d.isLt; omega)]
  exact congrArg own (Fin.ext h)

/-- A column j = 256 + d is the normalised gathered feature d. -/
theorem joined_right (own gath : Fin 256 → EReal) (d : Fin 256) (j : Fin 512) (h : j.val = 256 + d.val) :
    joined own gath j = gath d := by
  unfold joined
  rw [dif_neg (by omega)]
  exact congrArg gath (Fin.ext (by show j.val - 256 = d.val; omega))

variable {B : Nat}

/-- Pair b's solute rows, out of a [B, 64, 256] array. -/
abbrev solute (H₁ : (⟨3, ![B, 64, 256]⟩ : Shape).Idx → EReal) (b : Fin B) : Fin 64 → Fin 256 → EReal :=
  fun n d => H₁ (ix3 b n d)
/-- Pair b's solvent rows, out of a [B, 128, 256] array. -/
abbrev solvent (H₂ : (⟨3, ![B, 128, 256]⟩ : Shape).Idx → EReal) (b : Fin B) : Fin 128 → Fin 256 → EReal :=
  fun m d => H₂ (ix3 b m d)
/-- A length-256 vector as a function of its one coordinate. -/
abbrev vec (g : (⟨1, ![256]⟩ : Shape).Idx → EReal) : Fin 256 → EReal := fun d => g (ix1 d)

/-- The first result, [B, 64, 512]: solute row (b, n) joined with its normalised gathered row. -/
def enhanced₁ (H₁ : (⟨3, ![B, 64, 256]⟩ : Shape).Idx → EReal) (H₂ : (⟨3, ![B, 128, 256]⟩ : Shape).Idx → EReal)
    (γ β : (⟨1, ![256]⟩ : Shape).Idx → EReal) : (⟨3, ![B, 64, 512]⟩ : Shape).Idx → EReal :=
  fun i => joined (solute H₁ (i 0) (i 1))
    (layerNorm (vec γ) (vec β) (gathered₁ (solute H₁ (i 0)) (solvent H₂ (i 0)) (i 1))) (i 2)

/-- The second result, [B, 128, 512]: solvent row (b, m) joined with its normalised gathered row. -/
def enhanced₂ (H₁ : (⟨3, ![B, 64, 256]⟩ : Shape).Idx → EReal) (H₂ : (⟨3, ![B, 128, 256]⟩ : Shape).Idx → EReal)
    (γ β : (⟨1, ![256]⟩ : Shape).Idx → EReal) : (⟨3, ![B, 128, 512]⟩ : Shape).Idx → EReal :=
  fun i => joined (solvent H₂ (i 0) (i 1))
    (layerNorm (vec γ) (vec β) (gathered₂ (solute H₁ (i 0)) (solvent H₂ (i 0)) (i 1))) (i 2)

/-- Row (b, n) of the first result depends on pair b's rows only: two batches (of any two sizes) that hold
    the same rows for their pairs b and b' give the same row there. -/
theorem enhanced₁_congr {B' : Nat} (X₁ : (⟨3, ![B, 64, 256]⟩ : Shape).Idx → EReal) (X₂ : (⟨3, ![B, 128, 256]⟩ : Shape).Idx → EReal)
    (H₁ : (⟨3, ![B', 64, 256]⟩ : Shape).Idx → EReal) (H₂ : (⟨3, ![B', 128, 256]⟩ : Shape).Idx → EReal)
    (γ β : (⟨1, ![256]⟩ : Shape).Idx → EReal) (b : Fin B) (b' : Fin B')
    (h₁ : ∀ n d, X₁ (ix3 b n d) = H₁ (ix3 b' n d)) (h₂ : ∀ m d, X₂ (ix3 b m d) = H₂ (ix3 b' m d))
    (n : Fin 64) (j : Fin 512) :
    enhanced₁ X₁ X₂ γ β (ix3 b n j) = enhanced₁ H₁ H₂ γ β (ix3 b' n j) := by
  have e₁ : solute X₁ b = solute H₁ b' := funext fun n => funext fun d => h₁ n d
  have e₂ : solvent X₂ b = solvent H₂ b' := funext fun m => funext fun d => h₂ m d
  show joined (solute X₁ b n) (layerNorm (vec γ) (vec β) (gathered₁ (solute X₁ b) (solvent X₂ b) n)) j
     = joined (solute H₁ b' n) (layerNorm (vec γ) (vec β) (gathered₁ (solute H₁ b') (solvent H₂ b') n)) j
  rw [e₁, e₂]

/-- The same for the second result. -/
theorem enhanced₂_congr {B' : Nat} (X₁ : (⟨3, ![B, 64, 256]⟩ : Shape).Idx → EReal) (X₂ : (⟨3, ![B, 128, 256]⟩ : Shape).Idx → EReal)
    (H₁ : (⟨3, ![B', 64, 256]⟩ : Shape).Idx → EReal) (H₂ : (⟨3, ![B', 128, 256]⟩ : Shape).Idx → EReal)
    (γ β : (⟨1, ![256]⟩ : Shape).Idx → EReal) (b : Fin B) (b' : Fin B')
    (h₁ : ∀ n d, X₁ (ix3 b n d) = H₁ (ix3 b' n d)) (h₂ : ∀ m d, X₂ (ix3 b m d) = H₂ (ix3 b' m d))
    (r : Fin 128) (j : Fin 512) :
    enhanced₂ X₁ X₂ γ β (ix3 b r j) = enhanced₂ H₁ H₂ γ β (ix3 b' r j) := by
  have e₁ : solute X₁ b = solute H₁ b' := funext fun n => funext fun d => h₁ n d
  have e₂ : solvent X₂ b = solvent H₂ b' := funext fun m => funext fun d => h₂ m d
  show joined (solvent X₂ b r) (layerNorm (vec γ) (vec β) (gathered₂ (solute X₁ b) (solvent X₂ b) r)) j
     = joined (solvent H₂ b' r) (layerNorm (vec γ) (vec β) (gathered₂ (solute H₁ b') (solvent H₂ b') r)) j
  rw [e₁, e₂]

/-! ## The results as the programs return them

Both programs take the node features flat — [65536, 256] and [131072, 256], node r of the first being row
r % 64 of pair r / 64 — and return the results flat, [65536, 512] and [131072, 512]. The re-laying in and out is
the same row-major reshape on both sides, so it is carried here as it stands and never read at an index. -/

/-- The first result, [65536, 512]. (The three shape facts are propositions: any proofs of them give the same array.) -/
def result₁ (A₁ : (⟨2, ![65536, 256]⟩ : Shape).Idx → EReal) (A₂ : (⟨2, ![131072, 256]⟩ : Shape).Idx → EReal)
    (γ β : (⟨1, ![256]⟩ : Shape).Idx → EReal)
    (h₁ : Shape.ShapeCasts ⟨2, ![65536, 256]⟩ ⟨3, ![1024, 64, 256]⟩) (h₂ : Shape.ShapeCasts ⟨2, ![131072, 256]⟩ ⟨3, ![1024, 128, 256]⟩)
    (h : Shape.ShapeCasts ⟨3, ![1024, 64, 512]⟩ ⟨2, ![65536, 512]⟩) : (⟨2, ![65536, 512]⟩ : Shape).Idx → EReal :=
  shapeCast _ (enhanced₁ (shapeCast _ A₁ h₁) (shapeCast _ A₂ h₂) γ β) h

/-- The second result, [131072, 512]. -/
def result₂ (A₁ : (⟨2, ![65536, 256]⟩ : Shape).Idx → EReal) (A₂ : (⟨2, ![131072, 256]⟩ : Shape).Idx → EReal)
    (γ β : (⟨1, ![256]⟩ : Shape).Idx → EReal)
    (h₁ : Shape.ShapeCasts ⟨2, ![65536, 256]⟩ ⟨3, ![1024, 64, 256]⟩) (h₂ : Shape.ShapeCasts ⟨2, ![131072, 256]⟩ ⟨3, ![1024, 128, 256]⟩)
    (h : Shape.ShapeCasts ⟨3, ![1024, 128, 512]⟩ ⟨2, ![131072, 512]⟩) : (⟨2, ![131072, 512]⟩ : Shape).Idx → EReal :=
  shapeCast _ (enhanced₂ (shapeCast _ A₁ h₁) (shapeCast _ A₂ h₂) γ β) h

end Cert.Interaction

end
-- ==== Proof.TileOps.lean ====
/-
  A [B, R, C] tile of rows, read at an index through the operations a layer norm over the last axis is made of:
  the sum along a row, that sum kept as a column [B, R, 1], a column spread back over its row, and a vector
  [C] laid as [1, 1, C] and spread over every row.  Any extents; extended reals.
-/
import Idealize.ShloMosaic.PureOps.Ideal.Laws
import Idealize.ShloMosaic.Lib.Pipeline.Value
import Idealize.ShloMosaic.Lib.ValueIdx
import proofs.«122258_j29265907155226_2_alg».proof.Proof.Spec

noncomputable section

namespace Cert.Interaction.Tile

open Idealize.ShloMosaic Idealize.ShloMosaic.ValueIdx

variable {B R C : Nat}

/-- A sum along the last axis, at row (b, r): the sum of the row's entries. -/
theorem rowSum_apply (v : FVec Ideal ⟨3, ![B, R, C]⟩ .f32) (h : Shape.Reduces ⟨3, ![B, R, C]⟩ [2] ⟨2, ![B, R]⟩)
    (hφ : FKind.Formats .f32) (hacc : (0x00000000#32 : BitVec 32) = FKind.add.neutral .f32 hφ) (b : Fin B) (r : Fin R) :
    multiReduction .add [2] ⟨2, ![B, R]⟩ v 0x00000000#32 h hφ hacc (ix2 b r) = ∑ k : Fin C, v (ix3 b r k) := by
  refine (Ideal.multiReduction_add_single v _ h hφ hacc (ix2 b r)).trans ?_
  refine Finset.sum_congr rfl fun k _ => congrArg v ?_
  funext a; apply Fin.ext
  match a with
  | ⟨0, _⟩ => rfl
  | ⟨1, _⟩ => rfl
  | ⟨2, _⟩ => rfl

/-- A [B, R] array kept as a column [B, R, 1]: entry (b, r, 0) is entry (b, r). -/
theorem column_apply {α : Type} (v : (⟨2, ![B, R]⟩ : Shape).Idx → α) (h : Shape.ShapeCasts ⟨2, ![B, R]⟩ ⟨3, ![B, R, 1]⟩)
    (b : Fin B) (r : Fin R) (z : Fin 1) : shapeCast ⟨3, ![B, R, 1]⟩ v h (ix3 b r z) = v (ix2 b r) := by
  refine shapeCast_apply v h (ix3 b r z) (ix2 b r) ?_
  rw [Shape.rowMajor_val_two, Shape.rowMajor_val_three]
  have hz : z.val = 0 := by have := z.isLt; omega
  show b.val * R + r.val = (b.val * R + r.val) * 1 + z.val
  omega

/-- A column [B, R, 1] spread over its rows: entry (b, r, k) is the column's entry (b, r, 0). -/
theorem spread_apply {α : Type} (v : (⟨3, ![B, R, 1]⟩ : Shape).Idx → α) (h : Shape.Broadcasts ⟨3, ![B, R, 1]⟩ ⟨3, ![B, R, C]⟩)
    (b : Fin B) (r : Fin R) (k : Fin C) : broadcastTo ⟨3, ![B, R, C]⟩ v h (ix3 b r k) = v (ix3 b r 0) := by
  refine broadcastTo_apply v h (ix3 b r k) (ix3 b r 0) fun a => ?_
  match a with
  | ⟨0, _⟩ => show b.val = if B = 1 then 0 else b.val; have := b.isLt; split <;> omega
  | ⟨1, _⟩ => show r.val = if R = 1 then 0 else r.val; have := r.isLt; split <;> omega
  | ⟨2, _⟩ => show (0 : Fin 1).val = if (1 : Nat) = 1 then 0 else k.val; rfl

/-- A vector [C] laid as [1, 1, C]: entry (0, 0, k) is entry k. -/
theorem asRow_apply {α : Type} (v : (⟨1, ![C]⟩ : Shape).Idx → α) (h : Shape.ShapeCasts ⟨1, ![C]⟩ ⟨3, ![1, 1, C]⟩)
    (z z' : Fin 1) (k : Fin C) : shapeCast ⟨3, ![1, 1, C]⟩ v h (ix3 z z' k) = v (ix1 k) := by
  refine shapeCast_apply v h (ix3 z z' k) (ix1 k) ?_
  rw [Shape.rowMajor_val_one, Shape.rowMajor_val_three]
  have hz : z.val = 0 := by have := z.isLt; omega
  have hz' : z'.val = 0 := by have := z'.isLt; omega
  show k.val = (z.val * 1 + z'.val) * C + k.val
  rw [hz, hz']; simp

/-- That row spread over every row of a [B, R, C] tile: entry (b, r, k) is the row's entry k. -/
theorem spreadRow_apply {α : Type} (v : (⟨3, ![1, 1, C]⟩ : Shape).Idx → α) (h : Shape.Broadcasts ⟨3, ![1, 1, C]⟩ ⟨3, ![B, R, C]⟩)
    (b : Fin B) (r : Fin R) (k : Fin C) : broadcastTo ⟨3, ![B, R, C]⟩ v h (ix3 b r k) = v (ix3 0 0 k) := by
  refine broadcastTo_apply v h (ix3 b r k) (ix3 0 0 k) fun a => ?_
  match a with
  | ⟨0, _⟩ => show (0 : Fin 1).val = if (1 : Nat) = 1 then 0 else b.val; rfl
  | ⟨1, _⟩ => show (0 : Fin 1).val = if (1 : Nat) = 1 then 0 else r.val; rfl
  | ⟨2, _⟩ => show k.val = if C = 1 then 0 else k.val; have := k.isLt; split <;> omega

/-! ## The layer norm of every row of a tile -/

section Norm

variable (hR : Shape.Reduces ⟨3, ![B, R, C]⟩ [2] ⟨2, ![B, R]⟩) (hC : Shape.ShapeCasts ⟨2, ![B, R]⟩ ⟨3, ![B, R, 1]⟩)
  (hS : Shape.Broadcasts ⟨3, ![B, R, 1]⟩ ⟨3, ![B, R, C]⟩) (hV : Shape.ShapeCasts ⟨1, ![C]⟩ ⟨3, ![1, 1, C]⟩)
  (hW : Shape.Broadcasts ⟨3, ![1, 1, C]⟩ ⟨3, ![B, R, C]⟩)
  (hφ : FKind.Formats .f32) (hacc : (0x00000000#32 : BitVec 32) = FKind.add.neutral .f32 hφ)

/-- The row sums divided by 256, kept as a column: for a tile of rows of length 256, the rows' means. -/
def rowMeans (x : FVec Ideal ⟨3, ![B, R, C]⟩ .f32) : FVec Ideal ⟨3, ![B, R, 1]⟩ .f32 :=
  divf (shapeCast ⟨3, ![B, R, 1]⟩ (multiReduction .add [2] ⟨2, ![B, R]⟩ x 0x00000000#32 hR hφ hacc) hC)
    (broadcast ⟨3, ![B, R, 1]⟩ (Scalar.ofBits .f32 0x43800000#32))

/-- Entry (b, r, 0) of that column is the mean of row (b, r). -/
theorem rowMeans_apply (x : FVec Ideal ⟨3, ![B, R, C]⟩ .f32) (b : Fin B) (r : Fin R) (z : Fin 1) :
    rowMeans hR hC hφ hacc x (ix3 b r z) = mean fun k => x (ix3 b r k) := by
  show Ideal.div (shapeCast ⟨3, ![B, R, 1]⟩ (multiReduction .add [2] ⟨2, ![B, R]⟩ x 0x00000000#32 hR hφ hacc) hC (ix3 b r z)) width = _
  rw [column_apply, rowSum_apply]
  rfl

/-- The layer norm of every row, operation by operation: centre each row on its mean, take the mean of the squares,
    multiply by the reciprocal root of that plus ε, then by the gain and add the bias, both spread over the rows. -/
def normTile (γ β : FVec Ideal ⟨1, ![C]⟩ .f32) (x : FVec Ideal ⟨3, ![B, R, C]⟩ .f32) : FVec Ideal ⟨3, ![B, R, C]⟩ .f32 :=
  addf (mulf (mulf (subf x (broadcastTo ⟨3, ![B, R, C]⟩ (rowMeans hR hC hφ hacc x) hS))
        (broadcastTo ⟨3, ![B, R, C]⟩
          (rsqrt (addf (rowMeans hR hC hφ hacc
              (mulf (subf x (broadcastTo ⟨3, ![B, R, C]⟩ (rowMeans hR hC hφ hacc x) hS))
                (subf x (broadcastTo ⟨3, ![B, R, C]⟩ (rowMeans hR hC hφ hacc x) hS))))
            (broadcast ⟨3, ![B, R, 1]⟩ (Scalar.ofBits .f32 0x3727C5AC#32)))) hS))
      (broadcastTo ⟨3, ![B, R, C]⟩ (shapeCast ⟨3, ![1, 1, C]⟩ γ hV) hW))
    (broadcastTo ⟨3, ![B, R, C]⟩ (shapeCast ⟨3, ![1, 1, C]⟩ β hV) hW)

/-- Entry (b, r, d) of the normalised tile is the layer norm of row (b, r) at d: the row's mean and variance are read
    off the columns, the gain and the bias off the spread vectors. -/
theorem normTile_apply (γ β : FVec Ideal ⟨1, ![C]⟩ .f32) (x : FVec Ideal ⟨3, ![B, R, C]⟩ .f32) (b : Fin B) (r : Fin R) (d : Fin C) :
    normTile hR hC hS hV hW hφ hacc γ β x (ix3 b r d)
      = layerNorm (fun k => γ (ix1 k)) (fun k => β (ix1 k)) (fun k => x (ix3 b r k)) d := by
  -- the centred tile at (b, r, k) is the row's entry minus the row's mean
  have hc : ∀ k : Fin C, subf x (broadcastTo ⟨3, ![B, R, C]⟩ (rowMeans hR hC hφ hacc x) hS) (ix3 b r k)
      = x (ix3 b r k) - mean fun k => x (ix3 b r k) := fun k => by
    show x (ix3 b r k) - broadcastTo ⟨3, ![B, R, C]⟩ (rowMeans hR hC hφ hacc x) hS (ix3 b r k) = _
    rw [spread_apply, rowMeans_apply]
  -- so the mean of its squares is the row's variance
  have hv : rowMeans hR hC hφ hacc
        (mulf (subf x (broadcastTo ⟨3, ![B, R, C]⟩ (rowMeans hR hC hφ hacc x) hS))
          (subf x (broadcastTo ⟨3, ![B, R, C]⟩ (rowMeans hR hC hφ hacc x) hS))) (ix3 b r 0)
      = variance fun k => x (ix3 b r k) := by
    rw [rowMeans_apply]
    show mean (fun k => subf x (broadcastTo ⟨3, ![B, R, C]⟩ (rowMeans hR hC hφ hacc x) hS) (ix3 b r k)
        * subf x (broadcastTo ⟨3, ![B, R, C]⟩ (rowMeans hR hC hφ hacc x) hS) (ix3 b r k)) = _
    simp only [hc]
    rfl
  show subf x (broadcastTo ⟨3, ![B, R, C]⟩ (rowMeans hR hC hφ hacc x) hS) (ix3 b r d)
      * broadcastTo ⟨3, ![B, R, C]⟩ (rsqrt (addf (rowMeans hR hC hφ hacc
              (mulf (subf x (broadcastTo ⟨3, ![B, R, C]⟩ (rowMeans hR hC hφ hacc x) hS))
                (subf x (broadcastTo ⟨3, ![B, R, C]⟩ (rowMeans hR hC hφ hacc x) hS))))
            (broadcast ⟨3, ![B, R, 1]⟩ (Scalar.ofBits .f32 0x3727C5AC#32)))) hS (ix3 b r d)
      * broadcastTo ⟨3, ![B, R, C]⟩ (shapeCast ⟨3, ![1, 1, C]⟩ γ hV) hW (ix3 b r d)
      + broadcastTo ⟨3, ![B, R, C]⟩ (shapeCast ⟨3, ![1, 1, C]⟩ β hV) hW (ix3 b r d) = _
  rw [hc, spread_apply, spreadRow_apply, spreadRow_apply, asRow_apply, asRow_apply]
  show (x (ix3 b r d) - mean fun k => x (ix3 b r k))
      * Ideal.rsqrt (rowMeans hR hC hφ hacc
              (mulf (subf x (broadcastTo ⟨3, ![B, R, C]⟩ (rowMeans hR hC hφ hacc x) hS))
                (subf x (broadcastTo ⟨3, ![B, R, C]⟩ (rowMeans hR hC hφ hacc x) hS))) (ix3 b r 0) + eps)
      * γ (ix1 d) + β (ix1 d) = _
  rw [hv]
  rfl

end Norm

end Cert.Interaction.Tile

end
-- ==== Proof.TileDots.lean ====
/-
  The kernel's three matrix products on a tile of 16 pairs, each into a zero accumulator and each read at one
  entry as a plain sum over its one contracted axis (all three are batched over the pair index b):
    scores   [16,64,256] × [16,128,256] → [16,64,128]:  entry (b, n, m) = ∑ d, l (b, n, d) · r (b, m, d)
    gather₁  [16,64,128] × [16,128,256] → [16,64,256]:  entry (b, n, d) = ∑ m, l (b, n, m) · r (b, m, d)
    gather₂  [16,64,128] × [16,64,256]  → [16,128,256]: entry (b, m, d) = ∑ n, l (b, n, m) · r (b, n, d)
  For each product the operand indices at (output entry i, contraction index q) are first computed axis by axis
  from the dimension numbers — the batch axis carries i's pair coordinate, a free axis carries i's coordinate for
  that operand, the contracted axis carries q's one coordinate — and then the sum over the one-axis contraction
  index is exchanged for the sum over its coordinate k.
-/
import proofs.«122258_j29265907155226_2_alg».proof.Proof.Gen.KernelIdeal
import Idealize.ShloMosaic.PureOps.Ideal.Laws
import Idealize.ShloMosaic.Lib.ValueIdx

noncomputable section

namespace Cert.Interaction.Dots

open Cert.KernelIdeal Cert.KernelIdeal.Gen Idealize.ShloMosaic Idealize.ShloMosaic.ValueIdx

/-! ## The scores: both operands contracted on their feature axis 2 -/

theorem scores_l0 (i : S16x64x128.Idx) (q : dot_S16x64x256_S16x128x256_S16x64x128_2_2_1_1_0_0.contr.Idx) : (dot_S16x64x256_S16x128x256_S16x64x128_2_2_1_1_0_0.lhsIdx i q 0).val = (i 0).val := by
  unfold DotDims.lhsIdx
  rw [dif_pos (show (0 : Fin S16x64x256.rank) ∈ dot_S16x64x256_S16x128x256_S16x64x128_2_2_1_1_0_0.lhsBatch by decide)]
  rfl
theorem scores_l1 (i : S16x64x128.Idx) (q : dot_S16x64x256_S16x128x256_S16x64x128_2_2_1_1_0_0.contr.Idx) : (dot_S16x64x256_S16x128x256_S16x64x128_2_2_1_1_0_0.lhsIdx i q 1).val = (i 1).val := by
  unfold DotDims.lhsIdx
  rw [dif_neg (show ¬(1 : Fin S16x64x256.rank) ∈ dot_S16x64x256_S16x128x256_S16x64x128_2_2_1_1_0_0.lhsBatch by decide),
    dif_pos (show (1 : Fin S16x64x256.rank) ∈ dot_S16x64x256_S16x128x256_S16x64x128_2_2_1_1_0_0.lhsNonContracting by decide)]
  rfl
theorem scores_l2 (i : S16x64x128.Idx) (q : dot_S16x64x256_S16x128x256_S16x64x128_2_2_1_1_0_0.contr.Idx) : (dot_S16x64x256_S16x128x256_S16x64x128_2_2_1_1_0_0.lhsIdx i q 2).val = (q ⟨0, by decide⟩).val :=
  dot_S16x64x256_S16x128x256_S16x64x128_2_2_1_1_0_0.lhsIdx_val_of_single rfl i q
theorem scores_r0 (i : S16x64x128.Idx) (q : dot_S16x64x256_S16x128x256_S16x64x128_2_2_1_1_0_0.contr.Idx) : (dot_S16x64x256_S16x128x256_S16x64x128_2_2_1_1_0_0.rhsIdx i q 0).val = (i 0).val := by
  unfold DotDims.rhsIdx
  rw [dif_pos (show (0 : Fin S16x128x256.rank) ∈ dot_S16x64x256_S16x128x256_S16x64x128_2_2_1_1_0_0.rhsBatch by decide)]
  rfl
theorem scores_r1 (i : S16x64x128.Idx) (q : dot_S16x64x256_S16x128x256_S16x64x128_2_2_1_1_0_0.contr.Idx) : (dot_S16x64x256_S16x128x256_S16x64x128_2_2_1_1_0_0.rhsIdx i q 1).val = (i 2).val := by
  unfold DotDims.rhsIdx
  rw [dif_neg (show ¬(1 : Fin S16x128x256.rank) ∈ dot_S16x64x256_S16x128x256_S16x64x128_2_2_1_1_0_0.rhsBatch by decide),
    dif_pos (show (1 : Fin S16x128x256.rank) ∈ dot_S16x64x256_S16x128x256_S16x64x128_2_2_1_1_0_0.rhsNonContracting by decide)]
  rfl
theorem scores_r2 (i : S16x64x128.Idx) (q : dot_S16x64x256_S16x128x256_S16x64x128_2_2_1_1_0_0.contr.Idx) : (dot_S16x64x256_S16x128x256_S16x64x128_2_2_1_1_0_0.rhsIdx i q 2).val = (q ⟨0, by decide⟩).val :=
  dot_S16x64x256_S16x128x256_S16x64x128_2_2_1_1_0_0.rhsIdx_val_of_single rfl i q

/-- Rows of the left operand against rows of the right, contracted over the 256 features. -/
theorem scores_apply (l : FVec Ideal S16x64x256 .bf16) (r : FVec Ideal S16x128x256 .bf16) (b : Fin 16) (n : Fin 64) (m : Fin 128) :
    matmul dot_S16x64x256_S16x128x256_S16x64x128_2_2_1_1_0_0 none l r (constant S16x64x128 .f32 0x00000000#32) (ix3 b n m)
      = ∑ d : Fin 256, l (ix3 b n d) * r (ix3 b m d) := by
  simp only [matmul]
  rw [Ideal.matmul_constant_zero_apply, ← Equiv.sum_comp (contrEquiv1 dot_S16x64x256_S16x128x256_S16x64x128_2_2_1_1_0_0 256 rfl rfl).symm]
  refine Finset.sum_congr rfl fun k _ => ?_
  have hk := contrEquiv1_symm_val dot_S16x64x256_S16x128x256_S16x64x128_2_2_1_1_0_0 256 rfl rfl k
  have el : dot_S16x64x256_S16x128x256_S16x64x128_2_2_1_1_0_0.lhsIdx (ix3 b n m) ((contrEquiv1 dot_S16x64x256_S16x128x256_S16x64x128_2_2_1_1_0_0 256 rfl rfl).symm k) = ix3 b n k := funext fun a => Fin.ext (by
    match a with
    | ⟨0, _⟩ => exact scores_l0 _ _
    | ⟨1, _⟩ => exact scores_l1 _ _
    | ⟨2, _⟩ => exact (scores_l2 _ _).trans hk)
  have er : dot_S16x64x256_S16x128x256_S16x64x128_2_2_1_1_0_0.rhsIdx (ix3 b n m) ((contrEquiv1 dot_S16x64x256_S16x128x256_S16x64x128_2_2_1_1_0_0 256 rfl rfl).symm k) = ix3 b m k := funext fun a => Fin.ext (by
    match a with
    | ⟨0, _⟩ => exact scores_r0 _ _
    | ⟨1, _⟩ => exact scores_r1 _ _
    | ⟨2, _⟩ => exact (scores_r2 _ _).trans hk)
  rw [el, er]

/-! ## The first gathering: the weights' axis 2 against the right operand's row axis 1 -/

theorem gather₁_l0 (i : S16x64x256.Idx) (q : dot_S16x64x128_S16x128x256_S16x64x256_2_1_1_2_0_0.contr.Idx) : (dot_S16x64x128_S16x128x256_S16x64x256_2_1_1_2_0_0.lhsIdx i q 0).val = (i 0).val := by
  unfold DotDims.lhsIdx
  rw [dif_pos (show (0 : Fin S16x64x128.rank) ∈ dot_S16x64x128_S16x128x256_S16x64x256_2_1_1_2_0_0.lhsBatch by decide)]
  rfl
theorem gather₁_l1 (i : S16x64x256.Idx) (q : dot_S16x64x128_S16x128x256_S16x64x256_2_1_1_2_0_0.contr.Idx) : (dot_S16x64x128_S16x128x256_S16x64x256_2_1_1_2_0_0.lhsIdx i q 1).val = (i 1).val := by
  unfold DotDims.lhsIdx
  rw [dif_neg (show ¬(1 : Fin S16x64x128.rank) ∈ dot_S16x64x128_S16x128x256_S16x64x256_2_1_1_2_0_0.lhsBatch by decide),
    dif_pos (show (1 : Fin S16x64x128.rank) ∈ dot_S16x64x128_S16x128x256_S16x64x256_2_1_1_2_0_0.lhsNonContracting by decide)]
  rfl
theorem gather₁_l2 (i : S16x64x256.Idx) (q : dot_S16x64x128_S16x128x256_S16x64x256_2_1_1_2_0_0.contr.Idx) : (dot_S16x64x128_S16x128x256_S16x64x256_2_1_1_2_0_0.lhsIdx i q 2).val = (q ⟨0, by decide⟩).val :=
  dot_S16x64x128_S16x128x256_S16x64x256_2_1_1_2_0_0.lhsIdx_val_of_single rfl i q
theorem gather₁_r0 (i : S16x64x256.Idx) (q : dot_S16x64x128_S16x128x256_S16x64x256_2_1_1_2_0_0.contr.Idx) : (dot_S16x64x128_S16x128x256_S16x64x256_2_1_1_2_0_0.rhsIdx i q 0).val = (i 0).val := by
  unfold DotDims.rhsIdx
  rw [dif_pos (show (0 : Fin S16x128x256.rank) ∈ dot_S16x64x128_S16x128x256_S16x64x256_2_1_1_2_0_0.rhsBatch by decide)]
  rfl
theorem gather₁_r1 (i : S16x64x256.Idx) (q : dot_S16x64x128_S16x128x256_S16x64x256_2_1_1_2_0_0.contr.Idx) : (dot_S16x64x128_S16x128x256_S16x64x256_2_1_1_2_0_0.rhsIdx i q 1).val = (q ⟨0, by decide⟩).val :=
  dot_S16x64x128_S16x128x256_S16x64x256_2_1_1_2_0_0.rhsIdx_val_of_single rfl i q
theorem gather₁_r2 (i : S16x64x256.Idx) (q : dot_S16x64x128_S16x128x256_S16x64x256_2_1_1_2_0_0.contr.Idx) : (dot_S16x64x128_S16x128x256_S16x64x256_2_1_1_2_0_0.rhsIdx i q 2).val = (i 2).val := by
  unfold DotDims.rhsIdx
  rw [dif_neg (show ¬(2 : Fin S16x128x256.rank) ∈ dot_S16x64x128_S16x128x256_S16x64x256_2_1_1_2_0_0.rhsBatch by decide),
    dif_pos (show (2 : Fin S16x128x256.rank) ∈ dot_S16x64x128_S16x128x256_S16x64x256_2_1_1_2_0_0.rhsNonContracting by decide)]
  rfl

/-- Weights (b, n, ·) against the right operand's rows, contracted over its 128 rows. -/
theorem gather₁_apply (l : FVec Ideal S16x64x128 .bf16) (r : FVec Ideal S16x128x256 .bf16) (b : Fin 16) (n : Fin 64) (d : Fin 256) :
    matmul dot_S16x64x128_S16x128x256_S16x64x256_2_1_1_2_0_0 none l r (constant S16x64x256 .f32 0x00000000#32) (ix3 b n d)
      = ∑ m : Fin 128, l (ix3 b n m) * r (ix3 b m d) := by
  simp only [matmul]
  rw [Ideal.matmul_constant_zero_apply, ← Equiv.sum_comp (contrEquiv1 dot_S16x64x128_S16x128x256_S16x64x256_2_1_1_2_0_0 128 rfl rfl).symm]
  refine Finset.sum_congr rfl fun k _ => ?_
  have hk := contrEquiv1_symm_val dot_S16x64x128_S16x128x256_S16x64x256_2_1_1_2_0_0 128 rfl rfl k
  have el : dot_S16x64x128_S16x128x256_S16x64x256_2_1_1_2_0_0.lhsIdx (ix3 b n d) ((contrEquiv1 dot_S16x64x128_S16x128x256_S16x64x256_2_1_1_2_0_0 128 rfl rfl).symm k) = ix3 b n k := funext fun a => Fin.ext (by
    match a with
    | ⟨0, _⟩ => exact gather₁_l0 _ _
    | ⟨1, _⟩ => exact gather₁_l1 _ _
    | ⟨2, _⟩ => exact (gather₁_l2 _ _).trans hk)
  have er : dot_S16x64x128_S16x128x256_S16x64x256_2_1_1_2_0_0.rhsIdx (ix3 b n d) ((contrEquiv1 dot_S16x64x128_S16x128x256_S16x64x256_2_1_1_2_0_0 128 rfl rfl).symm k) = ix3 b k d := funext fun a => Fin.ext (by
    match a with
    | ⟨0, _⟩ => exact gather₁_r0 _ _
    | ⟨1, _⟩ => exact (gather₁_r1 _ _).trans hk
    | ⟨2, _⟩ => exact gather₁_r2 _ _)
  rw [el, er]

/-! ## The second gathering: the weights' axis 1 against the right operand's row axis 1 -/

theorem gather₂_l0 (i : S16x128x256.Idx) (q : dot_S16x64x128_S16x64x256_S16x128x256_1_1_2_2_0_0.contr.Idx) : (dot_S16x64x128_S16x64x256_S16x128x256_1_1_2_2_0_0.lhsIdx i q 0).val = (i 0).val := by
  unfold DotDims.lhsIdx
  rw [dif_pos (show (0 : Fin S16x64x128.rank) ∈ dot_S16x64x128_S16x64x256_S16x128x256_1_1_2_2_0_0.lhsBatch by decide)]
  rfl
theorem gather₂_l1 (i : S16x128x256.Idx) (q : dot_S16x64x128_S16x64x256_S16x128x256_1_1_2_2_0_0.contr.Idx) : (dot_S16x64x128_S16x64x256_S16x128x256_1_1_2_2_0_0.lhsIdx i q 1).val = (q ⟨0, by decide⟩).val :=
  dot_S16x64x128_S16x64x256_S16x128x256_1_1_2_2_0_0.lhsIdx_val_of_single rfl i q
theorem gather₂_l2 (i : S16x128x256.Idx) (q : dot_S16x64x128_S16x64x256_S16x128x256_1_1_2_2_0_0.contr.Idx) : (dot_S16x64x128_S16x64x256_S16x128x256_1_1_2_2_0_0.lhsIdx i q 2).val = (i 1).val := by
  unfold DotDims.lhsIdx
  rw [dif_neg (show ¬(2 : Fin S16x64x128.rank) ∈ dot_S16x64x128_S16x64x256_S16x128x256_1_1_2_2_0_0.lhsBatch by decide),
    dif_pos (show (2 : Fin S16x64x128.rank) ∈ dot_S16x64x128_S16x64x256_S16x128x256_1_1_2_2_0_0.lhsNonContracting by decide)]
  rfl
theorem gather₂_r0 (i : S16x128x256.Idx) (q : dot_S16x64x128_S16x64x256_S16x128x256_1_1_2_2_0_0.contr.Idx) : (dot_S16x64x128_S16x64x256_S16x128x256_1_1_2_2_0_0.rhsIdx i q 0).val = (i 0).val := by
  unfold DotDims.rhsIdx
  rw [dif_pos (show (0 : Fin S16x64x256.rank) ∈ dot_S16x64x128_S16x64x256_S16x128x256_1_1_2_2_0_0.rhsBatch by decide)]
  rfl
theorem gather₂_r1 (i : S16x128x256.Idx) (q : dot_S16x64x128_S16x64x256_S16x128x256_1_1_2_2_0_0.contr.Idx) : (dot_S16x64x128_S16x64x256_S16x128x256_1_1_2_2_0_0.rhsIdx i q 1).val = (q ⟨0, by decide⟩).val :=
  dot_S16x64x128_S16x64x256_S16x128x256_1_1_2_2_0_0.rhsIdx_val_of_single rfl i q
theorem gather₂_r2 (i : S16x128x256.Idx) (q : dot_S16x64x128_S16x64x256_S16x128x256_1_1_2_2_0_0.contr.Idx) : (dot_S16x64x128_S16x64x256_S16x128x256_1_1_2_2_0_0.rhsIdx i q 2).val = (i 2).val := by
  unfold DotDims.rhsIdx
  rw [dif_neg (show ¬(2 : Fin S16x64x256.rank) ∈ dot_S16x64x128_S16x64x256_S16x128x256_1_1_2_2_0_0.rhsBatch by decide),
    dif_pos (show (2 : Fin S16x64x256.rank) ∈ dot_S16x64x128_S16x64x256_S16x128x256_1_1_2_2_0_0.rhsNonContracting by decide)]
  rfl

/-- The same weights transposed, (b, ·, m), against the right operand's rows, contracted over its 64 rows. -/
theorem gather₂_apply (l : FVec Ideal S16x64x128 .bf16) (r : FVec Ideal S16x64x256 .bf16) (b : Fin 16) (m : Fin 128) (d : Fin 256) :
    matmul dot_S16x64x128_S16x64x256_S16x128x256_1_1_2_2_0_0 none l r (constant S16x128x256 .f32 0x00000000#32) (ix3 b m d)
      = ∑ n : Fin 64, l (ix3 b n m) * r (ix3 b n d) := by
  simp only [matmul]
  rw [Ideal.matmul_constant_zero_apply, ← Equiv.sum_comp (contrEquiv1 dot_S16x64x128_S16x64x256_S16x128x256_1_1_2_2_0_0 64 rfl rfl).symm]
  refine Finset.sum_congr rfl fun k _ => ?_
  have hk := contrEquiv1_symm_val dot_S16x64x128_S16x64x256_S16x128x256_1_1_2_2_0_0 64 rfl rfl k
  have el : dot_S16x64x128_S16x64x256_S16x128x256_1_1_2_2_0_0.lhsIdx (ix3 b m d) ((contrEquiv1 dot_S16x64x128_S16x64x256_S16x128x256_1_1_2_2_0_0 64 rfl rfl).symm k) = ix3 b k m := funext fun a => Fin.ext (by
    match a with
    | ⟨0, _⟩ => exact gather₂_l0 _ _
    | ⟨1, _⟩ => exact (gather₂_l1 _ _).trans hk
    | ⟨2, _⟩ => exact gather₂_l2 _ _)
  have er : dot_S16x64x128_S16x64x256_S16x128x256_1_1_2_2_0_0.rhsIdx (ix3 b m d) ((contrEquiv1 dot_S16x64x128_S16x64x256_S16x128x256_1_1_2_2_0_0 64 rfl rfl).symm k) = ix3 b k d := funext fun a => Fin.ext (by
    match a with
    | ⟨0, _⟩ => exact gather₂_r0 _ _
    | ⟨1, _⟩ => exact (gather₂_r1 _ _).trans hk
    | ⟨2, _⟩ => exact gather₂_r2 _ _)
  rw [el, er]

end Cert.Interaction.Dots

end
-- ==== Proof.KernelTile.lean ====
/-
  One grid step of the kernel on a tile of 16 pairs: what the body leaves in its two output buffers is the
  specification at the tile's own rows.

  The body loads the solute tile x₀ [16,64,256], the solvent tile x₁ [16,128,256], the gain and the bias [256];
  it stores x₀ into columns 0…255 of the first output buffer [16,64,512] and x₁ into columns 0…255 of the second;
  it forms the clipped, scaled scores (one batched product), the two gatherings (two more batched products of the
  SAME weights), layer-normalises each gathered tile and stores it into columns 256…511.  Changes of float format
  are the identity on the extended reals, so the products' operands are the loaded tiles themselves.
-/
import proofs.«122258_j29265907155226_2_alg».proof.Proof.Spec
import proofs.«122258_j29265907155226_2_alg».proof.Proof.TileOps
import proofs.«122258_j29265907155226_2_alg».proof.Proof.TileDots
import proofs.«122258_j29265907155226_2_alg».proof.Proof.Gen.KernelIdeal.Frame
import Idealize.ShloMosaic.Lib.Pipeline.Value

noncomputable section

namespace Cert.Interaction.Kernel

open Cert.KernelIdeal Cert.KernelIdeal.Gen Idealize.ShloMosaic Idealize.ShloMosaic.ValueIdx Cert.Interaction

variable (x0 : Vec Ideal S16x64x256 .f32) (x1 : Vec Ideal S16x128x256 .f32) (x2 x3 : Vec Ideal S256 .f32)

/-! ## The loaded tiles, as stored back and as the products' operands -/

/-- A re-laying to the same shape changes nothing: the left half of the first output is the solute tile. -/
theorem own₁ : k0_pay3 x0 = x0 := by unfold k0_pay3; exact shapeCast_self x0 _
theorem own₂ : k0_pay5 x1 = x1 := by unfold k0_pay5; exact shapeCast_self x1 _
/-- The narrowed copies the products read are, on the extended reals, the tiles themselves. -/
theorem operand₁ : k0_pay4 x0 = x0 := by unfold k0_pay4; exact own₁ x0
theorem operand₂ : k0_pay6 x1 = x1 := by unfold k0_pay6; exact own₂ x1

/-! ## The weights and the two gathered tiles, entry by entry -/

/-- Entry (b, n, m) of the weights: pair b's score of rows n and m, scaled and clipped. -/
theorem weights_apply (b : Fin 16) (n : Fin 64) (m : Fin 128) :
    k0_pay7 x0 x1 (ix3 b n m) = weight (solute x0 b) (solvent x1 b) n m := by
  unfold k0_pay7
  show min hi (max lo (matmul dot_S16x64x256_S16x128x256_S16x64x128_2_2_1_1_0_0 none (k0_pay4 x0) (k0_pay6 x1)
      (constant S16x64x128 .f32 0x00000000#32) (ix3 b n m) * scale)) = _
  rw [Dots.scores_apply, operand₁, operand₂]
  rfl

/-- Entry (b, n, d) of the first gathered tile. -/
theorem gathered₁_apply (b : Fin 16) (n : Fin 64) (d : Fin 256) :
    k0_pay8 x0 x1 (ix3 b n d) = gathered₁ (solute x0 b) (solvent x1 b) n d := by
  unfold k0_pay8
  show matmul dot_S16x64x128_S16x128x256_S16x64x256_2_1_1_2_0_0 none (k0_pay7 x0 x1) (k0_pay6 x1)
      (constant S16x64x256 .f32 0x00000000#32) (ix3 b n d) = _
  rw [Dots.gather₁_apply, operand₂]
  simp only [weights_apply]
  rfl

/-- Entry (b, m, d) of the second gathered tile: the same weights, summed over the solute rows. -/
theorem gathered₂_apply (b : Fin 16) (m : Fin 128) (d : Fin 256) :
    k0_pay9 x0 x1 (ix3 b m d) = gathered₂ (solute x0 b) (solvent x1 b) m d := by
  unfold k0_pay9
  show matmul dot_S16x64x128_S16x64x256_S16x128x256_1_1_2_2_0_0 none (k0_pay7 x0 x1) (k0_pay4 x0)
      (constant S16x128x256 .f32 0x00000000#32) (ix3 b m d) = _
  rw [Dots.gather₂_apply, operand₁]
  simp only [weights_apply]
  rfl

/-! ## The normalised halves -/

/-- What is stored into columns 256…511 of the first output is the layer norm of every row of the first gathered
    tile (the body computes its mean, variance and centred tile in separate steps; together they are the tile norm). -/
theorem normalised₁ : k0_pay1 x2 x3 (k0_pay11 x0 x1) (k0_pay12 x0 x1)
    = Tile.normTile reduces_S16x64x256_S16x64 shapeCasts_S16x64_S16x64x1 broadcasts_S16x64x1_S16x64x256
        shapeCasts_S256_S1x1x256 broadcasts_S1x1x256_S16x64x256 (.inl rfl) rfl x2 x3 (k0_pay8 x0 x1) := rfl

/-- And into columns 256…511 of the second, of the second gathered tile. -/
theorem normalised₂ : k0_pay2 x2 x3 (k0_pay9 x0 x1)
    = Tile.normTile reduces_S16x128x256_S16x128 shapeCasts_S16x128_S16x128x1 broadcasts_S16x128x1_S16x128x256
        shapeCasts_S256_S1x1x256 broadcasts_S1x1x256_S16x128x256 (.inl rfl) rfl x2 x3 (k0_pay9 x0 x1) := rfl

/-! ## The two stores of each output, as pieces of one function -/

theorem zero3 : (![0, 0, 0] : Fin 3 → Nat) = fun _ => 0 := funext fun a => by fin_cases a <;> rfl
theorem zero1 : (![0] : Fin 1 → Nat) = fun _ => 0 := funext fun a => by fin_cases a <;> rfl

/-- Each load reads its whole buffer: through the rectangle at offset zero of the buffer's own extents. -/
theorem load₀ : View.ld x0 r0_0 = x0 := View.ld_unit_zero (S := S16x64x256) zero3 _ x0
theorem load₁ : View.ld x1 r0_2 = x1 := View.ld_unit_zero (S := S16x128x256) zero3 _ x1
theorem load₂ : View.ld x2 r0_4 = x2 := View.ld_unit_zero (S := S256) zero1 _ x2
theorem load₃ : View.ld x3 r0_4 = x3 := View.ld_unit_zero (S := S256) zero1 _ x3

/-- The store into columns 0…255 of the first output writes the specification's left half. -/
theorem left₁ (x : S16x64x256.Idx) :
    k0_pay3 (View.ld x0 r0_0) x = enhanced₁ (B := 16) x0 x1 x2 x3 (r0_1.emb x) := by
  obtain ⟨b, n, d, rfl⟩ : ∃ (b : Fin 16) (n : Fin 64) (d : Fin 256), x = ix3 b n d := ⟨x 0, x 1, x 2, eq_ix3 x⟩
  have he : r0_1.emb (ix3 b n d) = ix3 b n (⟨d.val, by have := d.isLt; omega⟩ : Fin 512) := funext fun a => Fin.ext (by
    match a with
    | ⟨0, _⟩ => show 0 + 1 * b.val = b.val; omega
    | ⟨1, _⟩ => show 0 + 1 * n.val = n.val; omega
    | ⟨2, _⟩ => show 0 + 1 * d.val = d.val; omega)
  rw [he, load₀, own₁]
  exact (joined_left (solute x0 b n) (layerNorm (vec x2) (vec x3) (gathered₁ (solute x0 b) (solvent x1 b) n)) d
    (⟨d.val, by have := d.isLt; omega⟩ : Fin 512) rfl).symm

/-- The store into columns 256…511 of the first output writes the specification's right half. -/
theorem right₁ (x : S16x64x256.Idx) :
    k0_pay1 (View.ld x2 r0_4) (View.ld x3 r0_4) (k0_pay11 (View.ld x0 r0_0) (View.ld x1 r0_2))
        (k0_pay12 (View.ld x0 r0_0) (View.ld x1 r0_2)) x
      = enhanced₁ (B := 16) x0 x1 x2 x3 (r0_5.emb x) := by
  obtain ⟨b, n, d, rfl⟩ : ∃ (b : Fin 16) (n : Fin 64) (d : Fin 256), x = ix3 b n d := ⟨x 0, x 1, x 2, eq_ix3 x⟩
  have he : r0_5.emb (ix3 b n d) = ix3 b n (⟨256 + d.val, by have := d.isLt; omega⟩ : Fin 512) := funext fun a => Fin.ext (by
    match a with
    | ⟨0, _⟩ => show 0 + 1 * b.val = b.val; omega
    | ⟨1, _⟩ => show 0 + 1 * n.val = n.val; omega
    | ⟨2, _⟩ => show 256 + 1 * d.val = 256 + d.val; omega)
  rw [he, load₀, load₁, load₂, load₃, normalised₁]
  refine (Tile.normTile_apply _ _ _ _ _ _ _ x2 x3 (k0_pay8 x0 x1) b n d).trans ?_
  simp only [gathered₁_apply]
  exact (joined_right _ _ d (⟨256 + d.val, by have := d.isLt; omega⟩ : Fin 512) rfl).symm

theorem left₂ (x : S16x128x256.Idx) :
    k0_pay5 (View.ld x1 r0_2) x = enhanced₂ (B := 16) x0 x1 x2 x3 (r0_3.emb x) := by
  obtain ⟨b, m, d, rfl⟩ : ∃ (b : Fin 16) (m : Fin 128) (d : Fin 256), x = ix3 b m d := ⟨x 0, x 1, x 2, eq_ix3 x⟩
  have he : r0_3.emb (ix3 b m d) = ix3 b m (⟨d.val, by have := d.isLt; omega⟩ : Fin 512) := funext fun a => Fin.ext (by
    match a with
    | ⟨0, _⟩ => show 0 + 1 * b.val = b.val; omega
    | ⟨1, _⟩ => show 0 + 1 * m.val = m.val; omega
    | ⟨2, _⟩ => show 0 + 1 * d.val = d.val; omega)
  rw [he, load₁, own₂]
  exact (joined_left (solvent x1 b m) (layerNorm (vec x2) (vec x3) (gathered₂ (solute x0 b) (solvent x1 b) m)) d
    (⟨d.val, by have := d.isLt; omega⟩ : Fin 512) rfl).symm

theorem right₂ (x : S16x128x256.Idx) :
    k0_pay2 (View.ld x2 r0_4) (View.ld x3 r0_4) (k0_pay9 (View.ld x0 r0_0) (View.ld x1 r0_2)) x
      = enhanced₂ (B := 16) x0 x1 x2 x3 (r0_6.emb x) := by
  obtain ⟨b, m, d, rfl⟩ : ∃ (b : Fin 16) (m : Fin 128) (d : Fin 256), x = ix3 b m d := ⟨x 0, x 1, x 2, eq_ix3 x⟩
  have he : r0_6.emb (ix3 b m d) = ix3 b m (⟨256 + d.val, by have := d.isLt; omega⟩ : Fin 512) := funext fun a => Fin.ext (by
    match a with
    | ⟨0, _⟩ => show 0 + 1 * b.val = b.val; omega
    | ⟨1, _⟩ => show 0 + 1 * m.val = m.val; omega
    | ⟨2, _⟩ => show 256 + 1 * d.val = 256 + d.val; omega)
  rw [he, load₀, load₁, load₂, load₃, normalised₂]
  refine (Tile.normTile_apply _ _ _ _ _ _ _ x2 x3 (k0_pay9 x0 x1) b m d).trans ?_
  simp only [gathered₂_apply]
  exact (joined_right _ _ d (⟨256 + d.val, by have := d.isLt; omega⟩ : Fin 512) rfl).symm

/-! ## The two output buffers after the body -/

/-- The first output buffer after the body is the first result of the tile's 16 pairs: its two stores tile the
    buffer, and each is a piece of that one function. -/
theorem tile₁ : out0_4 x0 x1 x2 x3 = enhanced₁ (B := 16) x0 x1 x2 x3 := by
  funext y
  unfold out0_4
  refine View.canon_apply_of_pieces (Val := Elt Ideal) (S := S16x64x512) (e := .f32) (enhanced₁ (B := 16) x0 x1 x2 x3) _ ?_ y (cover0_4 _ _ y)
  intro p hp
  rcases List.mem_cons.mp hp with rfl | hp
  · exact right₁ x0 x1 x2 x3
  · rcases List.mem_singleton.mp hp with rfl
    exact left₁ x0 x1 x2 x3

/-- The second output buffer after the body is the second result of the tile's 16 pairs. -/
theorem tile₂ : out0_5 x0 x1 x2 x3 = enhanced₂ (B := 16) x0 x1 x2 x3 := by
  funext y
  unfold out0_5
  refine View.canon_apply_of_pieces (Val := Elt Ideal) (S := S16x128x512) (e := .f32) (enhanced₂ (B := 16) x0 x1 x2 x3) _ ?_ y (cover0_5 _ _ y)
  intro p hp
  rcases List.mem_cons.mp hp with rfl | hp
  · exact right₂ x0 x1 x2 x3
  · rcases List.mem_singleton.mp hp with rfl
    exact left₂ x0 x1 x2 x3

end Cert.Interaction.Kernel

end
-- ==== Proof.KernelArray.lean ====
/-
  From the tiles to the whole arrays, and through the re-layings around the kernel.

  The grid has 64 steps; step t handles pairs 16·t … 16·t + 15: every window of the solute, the solvent and the two
  results moves by one block of 16 pairs per step along the pair axis and is whole on the other two axes, and the
  gain and the bias are fetched whole.  So the tile the body sees at step t holds, at its pair bl, the rows of pair
  16·t + bl of the arrays; the block it writes back is the specification at those pairs (one step of the kernel is
  the specification on 16 pairs, and the specification at a pair depends on that pair's rows only); and the 64 blocks
  tile each result.  Before the kernel the two node arrays are re-laid [65536,256] → [1024,64,256] and
  [131072,256] → [1024,128,256]; after it the results are re-laid back.
-/
import proofs.«122258_j29265907155226_2_alg».proof.Proof.KernelTile
import Idealize.ShloMosaic.Lib.Pipeline.Value
import Idealize.ShloMosaic.Lib.StableHlo.Run

noncomputable section

namespace Cert.Interaction.Kernel

open Cert.KernelIdeal Cert.KernelIdeal.Gen Idealize.ShloMosaic Idealize.ShloMosaic.TcCoe Idealize.SL.Sem
open Idealize.ShloMosaic.ValueIdx Cert.Interaction
open Idealize.ShloMosaic.Pipeline (Dat)

variable (m : (ℓ : Loc nD τ sig) → Buf (Elt Ideal) ℓ) (ρ : Dev nD → PrngReg)

/-! ## Where each window's block sits at step t -/

/-- The printed index maps, decided over the 64 steps: the four big windows are at block t along the pair axis and at
    block 0 along the others; the gain's and the bias's windows stay at block 0. -/
theorem index_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ win0_2.index t (0 : Fin 1) = 0 ∧ win0_3.index t (0 : Fin 1) = 0 :=
  (by decide +kernel : ∀ t : Fin grid0.N, _)

/-- Row (bl, n) of the solute tile at step t is row n of pair 16·t + bl. -/
theorem solute_block (c : Dev nD) (t : Fin cfg0.N) (bl : Fin 16) (n : Fin 64) (d : Fin 256) (g : Fin 1024)
    (hg : g.val = t.val * 16 + bl.val) : iblk m c 0 t (ix3 bl n d) = V m c main_v0 (ix3 g n d) := by
  show V m c main_v0 (((cfg0.win 0).blk t).view.emb (ix3 bl n d)) = V m c main_v0 (ix3 g n d)
  obtain ⟨⟨e0, e1, e2⟩, -⟩ := index_facts t
  refine congrArg (V m c main_v0) (funext fun a => Fin.ext ?_)
  match a with
  | ⟨0, _⟩ => show win0_0.index t (0 : Fin 3) * 16 + 1 * bl.val = g.val; omega
  | ⟨1, _⟩ => show win0_0.index t (1 : Fin 3) * 64 + 1 * n.val = n.val; omega
  | ⟨2, _⟩ => show win0_0.index t (2 : Fin 3) * 256 + 1 * d.val = d.val; omega

/-- Row (bl, r) of the solvent tile at step t is row r of pair 16·t + bl. -/
theorem solvent_block (c : Dev nD) (t : Fin cfg0.N) (bl : Fin 16) (r : Fin 128) (d : Fin 256) (g : Fin 1024)
    (hg : g.val = t.val * 16 + bl.val) : iblk m c 1 t (ix3 bl r d) = V m c main_v1 (ix3 g r d) := by
  show V m c main_v1 (((cfg0.win 1).blk t).view.emb (ix3 bl r d)) = V m c main_v1 (ix3 g r d)
  obtain ⟨-, ⟨e0, e1, e2⟩, -⟩ := index_facts t
  refine congrArg (V m c main_v1) (funext fun a => Fin.ext ?_)
  match a with
  | ⟨0, _⟩ => show win0_1.index t (0 : Fin 3) * 16 + 1 * bl.val = g.val; omega
  | ⟨1, _⟩ => show win0_1.index t (1 : Fin 3) * 128 + 1 * r.val = r.val; omega
  | ⟨2, _⟩ => show win0_1.index t (2 : Fin 3) * 256 + 1 * d.val = d.val; omega

/-- The gain's block is the whole gain at every step, -/
theorem gain_block (c : Dev nD) (t : Fin cfg0.N) : iblk m c 2 t = V m c main_arg4 := by
  funext y
  show V m c main_arg4 (((cfg0.win 2).blk t).view.emb y) = V m c main_arg4 y
  obtain ⟨-, -, -, -, e, -⟩ := index_facts t
  refine congrArg (V m c main_arg4) (funext fun a => Fin.ext ?_)
  match a with
  | ⟨0, _⟩ => show win0_2.index t (0 : Fin 1) * 256 + 1 * (y 0).val = (y 0).val; omega

/-- and so is the bias's. -/
theorem bias_block (c : Dev nD) (t : Fin cfg0.N) : iblk m c 3 t = V m c main_arg5 := by
  funext y
  show V m c main_arg5 (((cfg0.win 3).blk t).view.emb y) = V m c main_arg5 y
  obtain ⟨-, -, -, -, -, e⟩ := index_facts t
  refine congrArg (V m c main_arg5) (funext fun a => Fin.ext ?_)
  match a with
  | ⟨0, _⟩ => show win0_3.index t (0 : Fin 1) * 256 + 1 * (y 0).val = (y 0).val; omega

/-! ## What each step writes back -/

/-- Step t writes back, into the first result, block t of the specification over the arrays the kernel is given. -/
theorem flushed₁ (c : Dev nD) (t : Fin cfg0.N) :
    (dats m 0 c).flushed 4 t = ((cfg0.win 4).blk t).view.read (Elt Ideal)
      (enhanced₁ (B := 1024) (V m c main_v0) (V m c main_v1) (V m c main_arg4) (V m c main_arg5)) := by
  show (cfg0.win 4).cut (grid0.coords t) ((dats m 0 c).after 4 t) = _
  rw [after0_4, tile₁, gain_block, bias_block]
  funext y
  obtain ⟨bl, n, j, rfl⟩ : ∃ (bl : Fin 16) (n : Fin 64) (j : Fin 512), y = ix3 bl n j := ⟨y 0, y 1, y 2, eq_ix3 y⟩
  have hN : cfg0.N = 64 := N_0
  have hg : t.val * 16 + bl.val < 1024 := by have := t.isLt; have := bl.isLt; omega
  obtain ⟨-, -, ⟨e0, e1, e2⟩, -⟩ := index_facts t
  have he : ((cfg0.win 4).blk t).view.emb (ix3 bl n j) = ix3 (⟨t.val * 16 + bl.val, hg⟩ : Fin 1024) n j :=
    funext fun a => Fin.ext (by
      match a with
      | ⟨0, _⟩ => show win0_4.index t (0 : Fin 3) * 16 + 1 * bl.val = t.val * 16 + bl.val; omega
      | ⟨1, _⟩ => show win0_4.index t (1 : Fin 3) * 64 + 1 * n.val = n.val; omega
      | ⟨2, _⟩ => show win0_4.index t (2 : Fin 3) * 512 + 1 * j.val = j.val; omega)
  show enhanced₁ (B := 16) (iblk m c 0 t) (iblk m c 1 t) (V m c main_arg4) (V m c main_arg5) (ix3 bl n j)
    = enhanced₁ (B := 1024) (V m c main_v0) (V m c main_v1) (V m c main_arg4) (V m c main_arg5)
        (((cfg0.win 4).blk t).view.emb (ix3 bl n j))
  rw [he]
  exact enhanced₁_congr _ _ _ _ _ _ bl ⟨_, hg⟩ (fun n d => solute_block m c t bl n d _ rfl)
    (fun r d => solvent_block m c t bl r d _ rfl) n j

/-- And into the second result, block t of the second specification. -/
theorem flushed₂ (c : Dev nD) (t : Fin cfg0.N) :
    (dats m 0 c).flushed 5 t = ((cfg0.win 5).blk t).view.read (Elt Ideal)
      (enhanced₂ (B := 1024) (V m c main_v0) (V m c main_v1) (V m c main_arg4) (V m c main_arg5)) := by
  show (cfg0.win 5).cut (grid0.coords t) ((dats m 0 c).after 5 t) = _
  rw [after0_5, tile₂, gain_block, bias_block]
  funext y
  obtain ⟨bl, r, j, rfl⟩ : ∃ (bl : Fin 16) (r : Fin 128) (j : Fin 512), y = ix3 bl r j := ⟨y 0, y 1, y 2, eq_ix3 y⟩
  have hN : cfg0.N = 64 := N_0
  have hg : t.val * 16 + bl.val < 1024 := by have := t.isLt; have := bl.isLt; omega
  obtain ⟨-, -, -, ⟨e0, e1, e2⟩, -⟩ := index_facts t
  have he : ((cfg0.win 5).blk t).view.emb (ix3 bl r j) = ix3 (⟨t.val * 16 + bl.val, hg⟩ : Fin 1024) r j :=
    funext fun a => Fin.ext (by
      match a with
      | ⟨0, _⟩ => show win0_5.index t (0 : Fin 3) * 16 + 1 * bl.val = t.val * 16 + bl.val; omega
      | ⟨1, _⟩ => show win0_5.index t (1 : Fin 3) * 128 + 1 * r.val = r.val; omega
      | ⟨2, _⟩ => show win0_5.index t (2 : Fin 3) * 512 + 1 * j.val = j.val; omega)
  show enhanced₂ (B := 16) (iblk m c 0 t) (iblk m c 1 t) (V m c main_arg4) (V m c main_arg5) (ix3 bl r j)
    = enhanced₂ (B := 1024) (V m c main_v0) (V m c main_v1) (V m c main_arg4) (V m c main_arg5)
        (((cfg0.win 5).blk t).view.emb (ix3 bl r j))
  rw [he]
  exact enhanced₂_congr _ _ _ _ _ _ bl ⟨_, hg⟩ (fun n d => solute_block m c t bl n d _ rfl)
    (fun r d => solvent_block m c t bl r d _ rfl) r j

/-! ## The 64 blocks tile each result -/

/-- An index of the first result is in step t's block iff each coordinate is in the block's range on its axis. -/
theorem mem_block₁ (t : Fin cfg0.N) (i : S1024x64x512.Idx) :
    i ∈ ((cfg0.win 4).blk t).view.set ↔ ∀ a : Fin 3, win0_4.index t a * S16x64x512.size a ≤ (i a).val
      ∧ (i a).val < win0_4.index t a * S16x64x512.size a + S16x64x512.size a := by
  show i ∈ ((View.whole main_v2_0).slice (win0_4.rect t)).set ↔ _
  rw [View.set_slice_whole, Rect.mem_set_unit]
  exact Iff.rfl

theorem mem_block₂ (t : Fin cfg0.N) (i : S1024x128x512.Idx) :
    i ∈ ((cfg0.win 5).blk t).view.set ↔ ∀ a : Fin 3, win0_5.index t a * S16x128x512.size a ≤ (i a).val
      ∧ (i a).val < win0_5.index t a * S16x128x512.size a + S16x128x512.size a := by
  show i ∈ ((View.whole main_v2_1).slice (win0_5.rect t)).set ↔ _
  rw [View.set_slice_whole, Rect.mem_set_unit]
  exact Iff.rfl

/-- Every entry of the first result is written by the step its pair belongs to: pair g is in block g / 16. -/
theorem cover₁ (i : S1024x64x512.Idx) : ∃ t : Fin cfg0.N, (cfg0.win 4).flush t = true ∧ i ∈ ((cfg0.win 4).blk t).view.set := by
  have hN : cfg0.N = 64 := N_0
  have h0 : (i 0).val < 1024 := (i 0).isLt
  have h1 : (i 1).val < 64 := (i 1).isLt
  have h2 : (i 2).val < 512 := (i 2).isLt
  refine ⟨⟨(i 0).val / 16, by omega⟩, flush0_4 _, ?_⟩
  rw [mem_block₁]
  obtain ⟨-, -, ⟨e0, e1, e2⟩, -⟩ := index_facts ⟨(i 0).val / 16, by omega⟩
  intro a
  match a with
  | ⟨0, _⟩ =>
    show win0_4.index ⟨(i 0).val / 16, _⟩ (0 : Fin 3) * 16 ≤ (i 0).val ∧ (i 0).val < win0_4.index ⟨(i 0).val / 16, _⟩ (0 : Fin 3) * 16 + 16
    rw [e0]; show (i 0).val / 16 * 16 ≤ (i 0).val ∧ (i 0).val < (i 0).val / 16 * 16 + 16; omega
  | ⟨1, _⟩ =>
    show win0_4.index ⟨(i 0).val / 16, _⟩ (1 : Fin 3) * 64 ≤ (i 1).val ∧ (i 1).val < win0_4.index ⟨(i 0).val / 16, _⟩ (1 : Fin 3) * 64 + 64
    rw [e1]; omega
  | ⟨2, _⟩ =>
    show win0_4.index ⟨(i 0).val / 16, _⟩ (2 : Fin 3) * 512 ≤ (i 2).val ∧ (i 2).val < win0_4.index ⟨(i 0).val / 16, _⟩ (2 : Fin 3) * 512 + 512
    rw [e2]; omega

theorem cover₂ (i : S1024x128x512.Idx) : ∃ t : Fin cfg0.N, (cfg0.win 5).flush t = true ∧ i ∈ ((cfg0.win 5).blk t).view.set := by
  have hN : cfg0.N = 64 := N_0
  have h0 : (i 0).val < 1024 := (i 0).isLt
  have h1 : (i 1).val < 128 := (i 1).isLt
  have h2 : (i 2).val < 512 := (i 2).isLt
  refine ⟨⟨(i 0).val / 16, by omega⟩, flush0_5 _, ?_⟩
  rw [mem_block₂]
  obtain ⟨-, -, -, ⟨e0, e1, e2⟩, -⟩ := index_facts ⟨(i 0).val / 16, by omega⟩
  intro a
  match a with
  | ⟨0, _⟩ =>
    show win0_5.index ⟨(i 0).val / 16, _⟩ (0 : Fin 3) * 16 ≤ (i 0).val ∧ (i 0).val < win0_5.index ⟨(i 0).val / 16, _⟩ (0 : Fin 3) * 16 + 16
    rw [e0]; show (i 0).val / 16 * 16 ≤ (i 0).val ∧ (i 0).val < (i 0).val / 16 * 16 + 16; omega
  | ⟨1, _⟩ =>
    show win0_5.index ⟨(i 0).val / 16, _⟩ (1 : Fin 3) * 128 ≤ (i 1).val ∧ (i 1).val < win0_5.index ⟨(i 0).val / 16, _⟩ (1 : Fin 3) * 128 + 128
    rw [e1]; omega
  | ⟨2, _⟩ =>
    show win0_5.index ⟨(i 0).val / 16, _⟩ (2 : Fin 3) * 512 ≤ (i 2).val ∧ (i 2).val < win0_5.index ⟨(i 0).val / 16, _⟩ (2 : Fin 3) * 512 + 512
    rw [e2]; omega

/-- So after the 64 steps the first result array holds the specification over the arrays the kernel is given, -/
theorem array₁ (c : Dev nD) : (dats m 0 c).arrAt 4 cfg0.N
    = enhanced₁ (B := 1024) (V m c main_v0) (V m c main_v1) (V m c main_arg4) (V m c main_arg5) :=
  (dats m 0 c).arrAt_eq_of_cover 4 _ (fun t _ => flushed₁ m c t) cover₁

/-- and the second result array the second specification. -/
theorem array₂ (c : Dev nD) : (dats m 0 c).arrAt 5 cfg0.N
    = enhanced₂ (B := 1024) (V m c main_v0) (V m c main_v1) (V m c main_arg4) (V m c main_arg5) :=
  (dats m 0 c).arrAt_eq_of_cover 5 _ (fun t _ => flushed₂ m c t) cover₂

end Cert.Interaction.Kernel

end
-- ==== Proof.KernelRun.lean ====
/-
  The kernel program's run, with both results stated by the specification.

  Around the 64 grid steps the program only re-lays arrays: the two node arrays before (the kernel is given
  [1024,64,256] and [1024,128,256]), the two result arrays after (back to [65536,512] and [131072,512]).  With the
  arrays the steps leave (`array₁`, `array₂`) that is exactly the specification's `result₁`, `result₂` of the four float
  arguments; all six arguments end as they were launched.
-/
import proofs.«122258_j29265907155226_2_alg».proof.Proof.KernelArray
import Idealize.ShloMosaic.Lib.StableHlo.Run

noncomputable section

namespace Cert.Interaction.Kernel

open Cert.KernelIdeal Cert.KernelIdeal.Gen Idealize.ShloMosaic Idealize.ShloMosaic.TcCoe Idealize.SL.Sem
open Idealize.ShloMosaic.ValueIdx Cert.Interaction
open Idealize.ShloMosaic.Pipeline (Dat)

variable (m : (ℓ : Loc nD τ sig) → Buf (Elt Ideal) ℓ) (ρ : Dev nD → PrngReg)

/-! ## Before the steps: the node arrays re-laid -/

/-- The solute array the kernel is given is the first argument re-laid as [1024, 64, 256]. -/
theorem solute_array (c : Dev nD) : (V m c main_v0 : S1024x64x256.Idx → EReal)
    = shapeCast S1024x64x256 (m ((c : Thread nD τ).loc main_arg0)) shapeCasts_S65536x256_S1024x64x256 := by
  show StableHlo.after hostOps0 (fun b => m (c, b)) (Proc.devRef .tc main_v0) = _
  after_results
  rfl

/-- The solvent array is the second argument re-laid as [1024, 128, 256]. -/
theorem solvent_array (c : Dev nD) : (V m c main_v1 : S1024x128x256.Idx → EReal)
    = shapeCast S1024x128x256 (m ((c : Thread nD τ).loc main_arg1)) shapeCasts_S131072x256_S1024x128x256 := by
  show StableHlo.after hostOps0 (fun b => m (c, b)) (Proc.devRef .tc main_v1) = _
  after_results
  rfl

/-! ## After the steps: the result arrays re-laid -/

/-- The first returned array is the first result array re-laid as [65536, 512]. -/
theorem returned₁ (c : Dev nD) : (Pipeline.afterTail₀ cfgs (dats m) 0 (V0 m) [hostOps1] c main_v3 : S65536x512.Idx → EReal)
    = shapeCast S65536x512 ((dats m 0 c).arrAt 4 cfg0.N) shapeCasts_S1024x64x512_S65536x512 := by
  unfold Pipeline.afterTail₀
  show StableHlo.after hostOps1 _ (Proc.devRef .tc main_v3) = _
  after_results
  exact congrArg (fun x => shapeCast S65536x512 x shapeCasts_S1024x64x512_S65536x512)
    (Pipeline.withArrays_arr spec0 launch0.win.arr_inj c _ _ 4)

/-- The second returned array is the second result array re-laid as [131072, 512]. -/
theorem returned₂ (c : Dev nD) : (Pipeline.afterTail₀ cfgs (dats m) 0 (V0 m) [hostOps1] c main_v4 : S131072x512.Idx → EReal)
    = shapeCast S131072x512 ((dats m 0 c).arrAt 5 cfg0.N) shapeCasts_S1024x128x512_S131072x512 := by
  unfold Pipeline.afterTail₀
  show StableHlo.after hostOps1 _ (Proc.devRef .tc main_v4) = _
  after_results
  exact congrArg (fun x => shapeCast S131072x512 x shapeCasts_S1024x128x512_S131072x512)
    (Pipeline.withArrays_arr spec0 launch0.win.arr_inj c _ _ 5)

/-- So the first returned array is the specification's first result of the arguments, -/
theorem value₁ (c : Dev nD) : (Pipeline.afterTail₀ cfgs (dats m) 0 (V0 m) [hostOps1] c main_v3 : S65536x512.Idx → EReal)
    = result₁ (m ((c : Thread nD τ).loc main_arg0)) (m ((c : Thread nD τ).loc main_arg1))
        (m ((c : Thread nD τ).loc main_arg4)) (m ((c : Thread nD τ).loc main_arg5))
        shapeCasts_S65536x256_S1024x64x256 shapeCasts_S131072x256_S1024x128x256 shapeCasts_S1024x64x512_S65536x512 := by
  rw [returned₁, array₁, solute_array, solvent_array, V_main_arg4, V_main_arg5]
  rfl

/-- and the second its second result. -/
theorem value₂ (c : Dev nD) : (Pipeline.afterTail₀ cfgs (dats m) 0 (V0 m) [hostOps1] c main_v4 : S131072x512.Idx → EReal)
    = result₂ (m ((c : Thread nD τ).loc main_arg0)) (m ((c : Thread nD τ).loc main_arg1))
        (m ((c : Thread nD τ).loc main_arg4)) (m ((c : Thread nD τ).loc main_arg5))
        shapeCasts_S65536x256_S1024x64x256 shapeCasts_S131072x256_S1024x128x256 shapeCasts_S1024x128x512_S131072x512 := by
  rw [returned₂, array₂, solute_array, solvent_array, V_main_arg4, V_main_arg5]
  rfl

/-! ## The run -/

/-- Every weakly fair execution of the kernel program terminates with the two returned arrays at the specification's
    results of the arguments, and the six arguments as launched. -/
theorem run : θ_run defs (onTc (τ := τ) (main (F := Ideal))) ⟨m, fun _ => 0, ρ⟩ fun r => ∀ c : Dev nD,
      r.2.mem ((c : Thread nD τ).loc main_v3)
        = result₁ (m ((c : Thread nD τ).loc main_arg0)) (m ((c : Thread nD τ).loc main_arg1))
            (m ((c : Thread nD τ).loc main_arg4)) (m ((c : Thread nD τ).loc main_arg5))
            shapeCasts_S65536x256_S1024x64x256 shapeCasts_S131072x256_S1024x128x256 shapeCasts_S1024x64x512_S65536x512
      ∧ r.2.mem ((c : Thread nD τ).loc main_v4)
        = result₂ (m ((c : Thread nD τ).loc main_arg0)) (m ((c : Thread nD τ).loc main_arg1))
            (m ((c : Thread nD τ).loc main_arg4)) (m ((c : Thread nD τ).loc main_arg5))
            shapeCasts_S65536x256_S1024x64x256 shapeCasts_S131072x256_S1024x128x256 shapeCasts_S1024x128x512_S131072x512
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
    ⟨((h c).2 main_v3 (Pipeline.mem_restRefs_of main_v3 (by decide) (by decide))).trans (value₁ m c),
     ((h c).2 main_v4 (Pipeline.mem_restRefs_of main_v4 (by decide) (by decide))).trans (value₂ m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).1 2).trans (((dats m 0 c).arrAt_in 2 rfl _).trans ((A_eq m c 2).trans (V_main_arg4 m c))),
     ((h c).1 3).trans (((dats m 0 c).arrAt_in 3 rfl _).trans ((A_eq m c 3).trans (V_main_arg5 m c)))⟩)
    (run_main m ρ)

end Cert.Interaction.Kernel

end
-- ==== Proof.Reference.lean ====
/-
  The reference program read as the mathematics of `Spec.lean`.

  The reference works on whole arrays: it re-lays the flat node features as [1024, 64, 256] and
  [1024, 128, 256], contracts them into the [1024, 64, 128] array of affinities, scales and clips it,
  contracts the clipped weights against either side's rows, and layer-normalises along the last axis by
  a chain of reductions and broadcasts.  Below, every array of that chain is read at ONE index written
  by its coordinates, (b, n, d) or (b, m, d), and identified with the one-pair quantity of the
  specification at pair b:

      affinities      at (b, n, m)   score  a c n m                    a = solute rows of pair b
      clipped weights at (b, n, m)   weight a c n m                    c = solvent rows of pair b
      gathered rows   at (b, n, d)   gathered₁ a c n d      and at (b, m, d)   gathered₂ a c m d
      row means       at (b, n, 0)   mean (gathered₁ a c n)            likewise for gathered₂
      row variances   at (b, n, 0)   variance (gathered₁ a c n)
      normalised rows at (b, n, d)   layerNorm γ β (gathered₁ a c n) d

  A broadcast reads its operand at the coordinates it keeps, a reduction along the last axis is a sum
  over that coordinate, and a batched contraction is a sum over the contracted coordinate at a fixed
  pair b: so each line is one rewriting step from the line above it.  The concatenation along the last
  axis then takes columns 0…255 from the row itself and columns 256…511 from its normalised gathered
  row, which is `joined`; and the flat re-layings in and out are the same row-major reshapes on both
  sides, so they are never read at an index.
-/
import proofs.«122258_j29265907155226_2_alg».proof.Proof.Spec
import proofs.«122258_j29265907155226_2_alg».proof.Proof.Gen.ReferenceIdeal.Read
import Idealize.ShloMosaic.Lib.Pipeline.Value
import Idealize.ShloMosaic.Lib.ValueIdx
import Idealize.ShloMosaic.PureOps.Ideal.Laws

noncomputable section

namespace Cert.Interaction.Ref

open Cert.ReferenceIdeal Cert.ReferenceIdeal.Gen Cert.ReferenceIdeal.Value Cert.ReferenceIdeal.Read
open Idealize.ShloMosaic Idealize.ShloMosaic.TcCoe Idealize.SL.Sem Idealize.ShloMosaic.ValueIdx

/-! ## Where each operation reads its operands

The generated index functions, evaluated at an index given by its coordinates. Each is an equality of two
functions on the (literal) set of axes, checked axis by axis; nothing is computed. -/

section Indices

variable (b : Fin 1024) (n : Fin 64) (m : Fin 128) (d : Fin 256)

/-- The affinity at (b, n, m) contracts solute row (b, n) … -/
theorem lidx_v2 (k : Fin 256) : lidx_main_v2 (ix3 b n m) k = ix3 b n k :=
  funext fun a => match a with | ⟨0, _⟩ => rfl | ⟨1, _⟩ => rfl | ⟨2, _⟩ => rfl
/-- … with solvent row (b, m), over the feature k. -/
theorem ridx_v2 (k : Fin 256) : ridx_main_v2 (ix3 b n m) k = ix3 b m k :=
  funext fun a => match a with | ⟨0, _⟩ => rfl | ⟨1, _⟩ => rfl | ⟨2, _⟩ => rfl

/-- Gathered entry (b, n, d) contracts the weights (b, n, ·) … -/
theorem lidx_v6 (k : Fin 128) : lidx_main_v6 (ix3 b n d) k = ix3 b n k :=
  funext fun a => match a with | ⟨0, _⟩ => rfl | ⟨1, _⟩ => rfl | ⟨2, _⟩ => rfl
/-- … with column d of the solvent rows (b, ·). -/
theorem ridx_v6 (k : Fin 128) : ridx_main_v6 (ix3 b n d) k = ix3 b k d :=
  funext fun a => match a with | ⟨0, _⟩ => rfl | ⟨1, _⟩ => rfl | ⟨2, _⟩ => rfl

/-- Gathered entry (b, m, d) of the other side contracts the weights (b, ·, m) … -/
theorem lidx_v31 (k : Fin 64) : lidx_main_v31 (ix3 b m d) k = ix3 b k m :=
  funext fun a => match a with | ⟨0, _⟩ => rfl | ⟨1, _⟩ => rfl | ⟨2, _⟩ => rfl
/-- … with column d of the solute rows (b, ·). -/
theorem ridx_v31 (k : Fin 64) : ridx_main_v31 (ix3 b m d) k = ix3 b k d :=
  funext fun a => match a with | ⟨0, _⟩ => rfl | ⟨1, _⟩ => rfl | ⟨2, _⟩ => rfl

/-- A sum along the last axis, at (b, n), runs over the entries (b, n, k). -/
theorem idx_v7 (k : Fin 256) : idx_main_v7 (ix2 b n) k = ix3 b n k :=
  funext fun a => match a with | ⟨0, _⟩ => rfl | ⟨1, _⟩ => rfl | ⟨2, _⟩ => rfl
theorem idx_v14 (k : Fin 256) : idx_main_v14 (ix2 b n) k = ix3 b n k :=
  funext fun a => match a with | ⟨0, _⟩ => rfl | ⟨1, _⟩ => rfl | ⟨2, _⟩ => rfl
theorem idx_v32 (k : Fin 256) : idx_main_v32 (ix2 b m) k = ix3 b m k :=
  funext fun a => match a with | ⟨0, _⟩ => rfl | ⟨1, _⟩ => rfl | ⟨2, _⟩ => rfl
theorem idx_v39 (k : Fin 256) : idx_main_v39 (ix2 b m) k = ix3 b m k :=
  funext fun a => match a with | ⟨0, _⟩ => rfl | ⟨1, _⟩ => rfl | ⟨2, _⟩ => rfl

/-- A per-row scalar kept as a [·, ·, 1] array: its entry (b, n, 0) is the scalar of row (b, n). -/
theorem idx_v8 (z : Fin 1) : idx_main_v8 (ix3 b n z) = ix2 b n :=
  funext fun a => match a with | ⟨0, _⟩ => rfl | ⟨1, _⟩ => rfl
theorem idx_v15 (z : Fin 1) : idx_main_v15 (ix3 b n z) = ix2 b n :=
  funext fun a => match a with | ⟨0, _⟩ => rfl | ⟨1, _⟩ => rfl
theorem idx_v33 (z : Fin 1) : idx_main_v33 (ix3 b m z) = ix2 b m :=
  funext fun a => match a with | ⟨0, _⟩ => rfl | ⟨1, _⟩ => rfl
theorem idx_v40 (z : Fin 1) : idx_main_v40 (ix3 b m z) = ix2 b m :=
  funext fun a => match a with | ⟨0, _⟩ => rfl | ⟨1, _⟩ => rfl

/-- A per-row scalar spread along the row: entry (b, n, d) reads the scalar at (b, n, 0). -/
theorem idx_v11 : idx_main_v11 (ix3 b n d) = ix3 b n (⟨0, Nat.one_pos⟩ : Fin 1) :=
  funext fun a => match a with | ⟨0, _⟩ => rfl | ⟨1, _⟩ => rfl | ⟨2, _⟩ => rfl
theorem idx_v18 : idx_main_v18 (ix3 b n d) = ix3 b n (⟨0, Nat.one_pos⟩ : Fin 1) :=
  funext fun a => match a with | ⟨0, _⟩ => rfl | ⟨1, _⟩ => rfl | ⟨2, _⟩ => rfl
theorem idx_v23 : idx_main_v23 (ix3 b n d) = ix3 b n (⟨0, Nat.one_pos⟩ : Fin 1) :=
  funext fun a => match a with | ⟨0, _⟩ => rfl | ⟨1, _⟩ => rfl | ⟨2, _⟩ => rfl
theorem idx_v36 : idx_main_v36 (ix3 b m d) = ix3 b m (⟨0, Nat.one_pos⟩ : Fin 1) :=
  funext fun a => match a with | ⟨0, _⟩ => rfl | ⟨1, _⟩ => rfl | ⟨2, _⟩ => rfl
theorem idx_v43 : idx_main_v43 (ix3 b m d) = ix3 b m (⟨0, Nat.one_pos⟩ : Fin 1) :=
  funext fun a => match a with | ⟨0, _⟩ => rfl | ⟨1, _⟩ => rfl | ⟨2, _⟩ => rfl
theorem idx_v48 : idx_main_v48 (ix3 b m d) = ix3 b m (⟨0, Nat.one_pos⟩ : Fin 1) :=
  funext fun a => match a with | ⟨0, _⟩ => rfl | ⟨1, _⟩ => rfl | ⟨2, _⟩ => rfl

/-- The gain and the bias, spread over all rows in two steps ([256] → [1, 1, 256] → the whole array): entry
    (b, n, d) reads the vector at d. -/
theorem idx_v25_v26 : idx_main_v25 (idx_main_v26 (ix3 b n d)) = ix1 d :=
  funext fun a => match a with | ⟨0, _⟩ => rfl
theorem idx_v28_v29 : idx_main_v28 (idx_main_v29 (ix3 b n d)) = ix1 d :=
  funext fun a => match a with | ⟨0, _⟩ => rfl
theorem idx_v50_v51 : idx_main_v50 (idx_main_v51 (ix3 b m d)) = ix1 d :=
  funext fun a => match a with | ⟨0, _⟩ => rfl
theorem idx_v53_v54 : idx_main_v53 (idx_main_v54 (ix3 b m d)) = ix1 d :=
  funext fun a => match a with | ⟨0, _⟩ => rfl

end Indices

/-! ## The chain, one array at a time -/

section Chain

variable (x0 : (⟨S65536x256, .f32⟩ : BufTy).Contents (Elt Ideal)) (x1 : (⟨S131072x256, .f32⟩ : BufTy).Contents (Elt Ideal))
variable (x4 x5 : (⟨S256, .f32⟩ : BufTy).Contents (Elt Ideal))

/-- Pair b's solute rows, out of the re-laid first argument. -/
abbrev rowsA (b : Fin 1024) : Fin 64 → Fin 256 → EReal := solute (val_main_v0 (F := Ideal) x0) b
/-- Pair b's solvent rows, out of the re-laid second argument. -/
abbrev rowsC (b : Fin 1024) : Fin 128 → Fin 256 → EReal := solvent (val_main_v1 (F := Ideal) x1) b

/-- The batched contraction over the feature axis, at (b, n, m), is the inner product of solute row n and
    solvent row m of pair b. -/
theorem score_read (b : Fin 1024) (n : Fin 64) (m : Fin 128) :
    val_main_v2 (F := Ideal) x0 x1 (ix3 b n m) = score (rowsA x0 b) (rowsC x1 b) n m := by
  rw [val_main_v2_apply]
  simp only [lidx_v2, ridx_v2]
  rfl

/-- Multiplying by the splat of 1/16 and clipping between the splats of −10 and 10 (a maximum, then a
    minimum) is `weight`, entry by entry: the three constants are the specification's own words. -/
theorem weight_read (b : Fin 1024) (n : Fin 64) (m : Fin 128) :
    val_main_v5 (F := Ideal) x0 x1 (ix3 b n m) = weight (rowsA x0 b) (rowsC x1 b) n m := by
  rw [val_main_v5_apply, val_main_call0_v4_apply, val_main_call0_v3_apply, val_main_cst_1_apply,
    val_main_call0_v2_apply, val_main_call0_v1_apply, val_main_call0_v0_apply, val_main_cst_0_apply,
    val_main_v4_apply, val_main_v3_apply, val_main_cst_apply, score_read]
  rfl

/-! ### The solute side: rows (b, n) -/

/-- Contracting the weights with the solvent rows over m: solute row n gathers the solvent rows. -/
theorem gathered₁_read (b : Fin 1024) (n : Fin 64) (d : Fin 256) :
    val_main_v6 (F := Ideal) x0 x1 (ix3 b n d) = gathered₁ (rowsA x0 b) (rowsC x1 b) n d := by
  rw [val_main_v6_apply]
  simp only [lidx_v6, ridx_v6, weight_read]
  rfl

/-- The row's sum (from the zero word, which is 0) divided by the splat of 256 is its mean. -/
theorem mean₁_read (b : Fin 1024) (n : Fin 64) (z : Fin 1) :
    val_main_v10 (F := Ideal) x0 x1 (ix3 b n z) = mean (gathered₁ (rowsA x0 b) (rowsC x1 b) n) := by
  rw [val_main_v10_apply, val_main_v8_apply, idx_v8, val_main_v7_apply, val_main_cst_2_apply,
    val_main_v9_apply, val_main_cst_3_apply]
  simp only [idx_v7, gathered₁_read, Ideal.ofBits_def, Ideal.ofBits_zero_f32, zero_add]
  rfl

/-- The sum of the squared deviations from the (spread) mean, divided by the splat of 256, is the variance. -/
theorem variance₁_read (b : Fin 1024) (n : Fin 64) (z : Fin 1) :
    val_main_v17 (F := Ideal) x0 x1 (ix3 b n z) = variance (gathered₁ (rowsA x0 b) (rowsC x1 b) n) := by
  rw [val_main_v17_apply, val_main_v15_apply, idx_v15, val_main_v14_apply, val_main_cst_4_apply,
    val_main_v16_apply, val_main_cst_5_apply]
  simp only [idx_v14, val_main_v13_apply, val_main_v12_apply, val_main_v11_apply, idx_v11, mean₁_read,
    gathered₁_read, Ideal.ofBits_def, Ideal.ofBits_zero_f32, zero_add]
  rfl

/-- Deviation from the mean, times the spread reciprocal square root of variance + ε, times the gain, plus
    the bias: the layer norm of the gathered row. -/
theorem norm₁_read (b : Fin 1024) (n : Fin 64) (d : Fin 256) :
    val_main_v30 (F := Ideal) x0 x1 x4 x5 (ix3 b n d)
      = layerNorm (vec x4) (vec x5) (gathered₁ (rowsA x0 b) (rowsC x1 b) n) d := by
  rw [val_main_v30_apply, val_main_v27_apply, val_main_v24_apply, val_main_v19_apply, gathered₁_read,
    val_main_v18_apply, idx_v18, mean₁_read, val_main_v23_apply, idx_v23, val_main_v22_apply,
    val_main_v21_apply, variance₁_read, val_main_v20_apply, val_main_cst_6_apply,
    val_main_v26_apply, val_main_v25_apply, idx_v25_v26, val_main_v29_apply, val_main_v28_apply, idx_v28_v29]
  rfl

/-! ### The solvent side: rows (b, m) — the same chain, with the weights read transposed -/

/-- Contracting the weights with the solute rows over n: solvent row m gathers the solute rows. -/
theorem gathered₂_read (b : Fin 1024) (m : Fin 128) (d : Fin 256) :
    val_main_v31 (F := Ideal) x0 x1 (ix3 b m d) = gathered₂ (rowsA x0 b) (rowsC x1 b) m d := by
  rw [val_main_v31_apply]
  simp only [lidx_v31, ridx_v31, weight_read]
  rfl

theorem mean₂_read (b : Fin 1024) (m : Fin 128) (z : Fin 1) :
    val_main_v35 (F := Ideal) x0 x1 (ix3 b m z) = mean (gathered₂ (rowsA x0 b) (rowsC x1 b) m) := by
  rw [val_main_v35_apply, val_main_v33_apply, idx_v33, val_main_v32_apply, val_main_cst_7_apply,
    val_main_v34_apply, val_main_cst_8_apply]
  simp only [idx_v32, gathered₂_read, Ideal.ofBits_def, Ideal.ofBits_zero_f32, zero_add]
  rfl

theorem variance₂_read (b : Fin 1024) (m : Fin 128) (z : Fin 1) :
    val_main_v42 (F := Ideal) x0 x1 (ix3 b m z) = variance (gathered₂ (rowsA x0 b) (rowsC x1 b) m) := by
  rw [val_main_v42_apply, val_main_v40_apply, idx_v40, val_main_v39_apply, val_main_cst_9_apply,
    val_main_v41_apply, val_main_cst_10_apply]
  simp only [idx_v39, val_main_v38_apply, val_main_v37_apply, val_main_v36_apply, idx_v36, mean₂_read,
    gathered₂_read, Ideal.ofBits_def, Ideal.ofBits_zero_f32, zero_add]
  rfl

theorem norm₂_read (b : Fin 1024) (m : Fin 128) (d : Fin 256) :
    val_main_v55 (F := Ideal) x0 x1 x4 x5 (ix3 b m d)
      = layerNorm (vec x4) (vec x5) (gathered₂ (rowsA x0 b) (rowsC x1 b) m) d := by
  rw [val_main_v55_apply, val_main_v52_apply, val_main_v49_apply, val_main_v44_apply, gathered₂_read,
    val_main_v43_apply, idx_v43, mean₂_read, val_main_v48_apply, idx_v48, val_main_v47_apply,
    val_main_v46_apply, variance₂_read, val_main_v45_apply, val_main_cst_11_apply,
    val_main_v51_apply, val_main_v50_apply, idx_v50_v51, val_main_v54_apply, val_main_v53_apply, idx_v53_v54]
  rfl

/-! ## The two concatenations

Along the last axis, [·, ·, 256] followed by [·, ·, 256] gives [·, ·, 512]: column j < 256 is column j of the
first piece, column j ≥ 256 is column j − 256 of the second. That is `joined`. -/

/-- The first result before its final re-laying is `enhanced₁` of the re-laid arguments. -/
theorem enhanced₁_read :
    val_main_v56 (F := Ideal) x0 x1 x4 x5
      = enhanced₁ (B := 1024) (val_main_v0 (F := Ideal) x0) (val_main_v1 (F := Ideal) x1) x4 x5 := by
  funext i
  obtain ⟨b, n, j, rfl⟩ : ∃ (b : Fin 1024) (n : Fin 64) (j : Fin 512), i = ix3 b n j :=
    ⟨i 0, i 1, i 2, eq_ix3 i⟩
  show _ = joined (rowsA x0 b n) (layerNorm (vec x4) (vec x5) (gathered₁ (rowsA x0 b) (rowsC x1 b) n)) j
  unfold val_main_v56 joined
  by_cases h : j.val < 256
  · -- a column of the row itself
    rw [dif_pos h]
    exact concatenate_pair_apply_left (t := S1024x64x512) (s₁ := S1024x64x256) (s₂ := S1024x64x256) (2 : Fin 3)
      (val_main_v0 (F := Ideal) x0) (val_main_v30 (F := Ideal) x0 x1 x4 x5)
      concatenates_S1024x64x256_S1024x64x256_S1024x64x512_d2 (ix3 b n j) rfl (ix3 b n (⟨j.val, h⟩ : Fin 256))
      (fun a => match a with | ⟨0, _⟩ => rfl | ⟨1, _⟩ => rfl | ⟨2, _⟩ => rfl)
  · -- a column of the normalised gathered row
    rw [dif_neg h]
    have hj : j.val - 256 < 256 := by have := j.isLt; omega
    refine (concatenate_pair_apply_right (t := S1024x64x512) (s₁ := S1024x64x256) (s₂ := S1024x64x256) (2 : Fin 3)
      (val_main_v0 (F := Ideal) x0) (val_main_v30 (F := Ideal) x0 x1 x4 x5)
      concatenates_S1024x64x256_S1024x64x256_S1024x64x512_d2 (ix3 b n j) rfl rfl (ix3 b n (⟨j.val - 256, hj⟩ : Fin 256))
      (fun a => match a with
        | ⟨0, _⟩ => fun _ => rfl | ⟨1, _⟩ => fun _ => rfl | ⟨2, _⟩ => fun ne => absurd rfl ne)
      (by show j.val - 256 + 256 = j.val; omega)).trans ?_
    exact norm₁_read x0 x1 x4 x5 b n ⟨j.val - 256, hj⟩

/-- The second result before its final re-laying is `enhanced₂` of the re-laid arguments. -/
theorem enhanced₂_read :
    val_main_v58 (F := Ideal) x0 x1 x4 x5
      = enhanced₂ (B := 1024) (val_main_v0 (F := Ideal) x0) (val_main_v1 (F := Ideal) x1) x4 x5 := by
  funext i
  obtain ⟨b, m, j, rfl⟩ : ∃ (b : Fin 1024) (m : Fin 128) (j : Fin 512), i = ix3 b m j :=
    ⟨i 0, i 1, i 2, eq_ix3 i⟩
  show _ = joined (rowsC x1 b m) (layerNorm (vec x4) (vec x5) (gathered₂ (rowsA x0 b) (rowsC x1 b) m)) j
  unfold val_main_v58 joined
  by_cases h : j.val < 256
  · rw [dif_pos h]
    exact concatenate_pair_apply_left (t := S1024x128x512) (s₁ := S1024x128x256) (s₂ := S1024x128x256) (2 : Fin 3)
      (val_main_v1 (F := Ideal) x1) (val_main_v55 (F := Ideal) x0 x1 x4 x5)
      concatenates_S1024x128x256_S1024x128x256_S1024x128x512_d2 (ix3 b m j) rfl (ix3 b m (⟨j.val, h⟩ : Fin 256))
      (fun a => match a with | ⟨0, _⟩ => rfl | ⟨1, _⟩ => rfl | ⟨2, _⟩ => rfl)
  · rw [dif_neg h]
    have hj : j.val - 256 < 256 := by have := j.isLt; omega
    refine (concatenate_pair_apply_right (t := S1024x128x512) (s₁ := S1024x128x256) (s₂ := S1024x128x256) (2 : Fin 3)
      (val_main_v1 (F := Ideal) x1) (val_main_v55 (F := Ideal) x0 x1 x4 x5)
      concatenates_S1024x128x256_S1024x128x256_S1024x128x512_d2 (ix3 b m j) rfl rfl (ix3 b m (⟨j.val - 256, hj⟩ : Fin 256))
      (fun a => match a with
        | ⟨0, _⟩ => fun _ => rfl | ⟨1, _⟩ => fun _ => rfl | ⟨2, _⟩ => fun ne => absurd rfl ne)
      (by show j.val - 256 + 256 = j.val; omega)).trans ?_
    exact norm₂_read x0 x1 x4 x5 b m ⟨j.val - 256, hj⟩

end Chain

/-! ## What the reference returns

The returned arrays are the flat re-layings of the two concatenations, and the re-laid arguments are the
specification's own re-layings of the flat inputs: with the two lemmas above the two sides are the same term. -/

theorem result₁_eq (m : (ℓ : Loc nD τ sig) → Buf (Elt Ideal) ℓ) (c : Dev nD) :
    res_out0 (F := Ideal) m c
      = Cert.Interaction.result₁ (m ((c.tc : Thread nD τ).loc main_arg0)) (m ((c.tc : Thread nD τ).loc main_arg1))
          (m ((c.tc : Thread nD τ).loc main_arg4)) (m ((c.tc : Thread nD τ).loc main_arg5))
          shapeCasts_S65536x256_S1024x64x256 shapeCasts_S131072x256_S1024x128x256 shapeCasts_S1024x64x512_S65536x512 := by
  refine (val_main_v57_eq (F := Ideal) m c).trans ?_
  unfold val_main_v57
  rw [enhanced₁_read]
  rfl

theorem result₂_eq (m : (ℓ : Loc nD τ sig) → Buf (Elt Ideal) ℓ) (c : Dev nD) :
    res_out1 (F := Ideal) m c
      = Cert.Interaction.result₂ (m ((c.tc : Thread nD τ).loc main_arg0)) (m ((c.tc : Thread nD τ).loc main_arg1))
          (m ((c.tc : Thread nD τ).loc main_arg4)) (m ((c.tc : Thread nD τ).loc main_arg5))
          shapeCasts_S65536x256_S1024x64x256 shapeCasts_S131072x256_S1024x128x256 shapeCasts_S1024x128x512_S131072x512 := by
  refine (val_main_v59_eq (F := Ideal) m c).trans ?_
  unfold val_main_v59
  rw [enhanced₂_read]
  rfl

end Cert.Interaction.Ref

end
-- ==== Proof.lean ====
/-
  The certificate of the graph-pair interaction kernel against its jnp reference.

  For each of 1024 pairs of graphs — 64 solute rows and 128 solvent rows of 256 features — both programs form the
  64 × 128 matrix of inner products, scale it by 1/16 and clip it to [−10, 10], let each row of either graph gather
  the other graph's rows by those weights, layer-normalise every gathered row, and return each row followed by its
  normalised gathered row.  Proof/Spec.lean states that as one function of the four float arguments
  (`result₁`, `result₂`).

  The kernel computes it 16 pairs per grid step with bf16 operands for its three matrix products; on the extended
  reals a change of float format is the identity and a product into a zero accumulator is a plain sum, so one step
  is the specification on its 16 pairs (Proof/KernelTile.lean over Proof/TileOps.lean and Proof/TileDots.lean), the
  64 steps tile the results (Proof/KernelArray.lean), and the re-layings around them are the specification's own
  (Proof/KernelRun.lean).  The reference computes it on whole arrays, operation by operation
  (Proof/Reference.lean, over the reference's generated run and reads).  No step rearranges a sum or uses that the
  inputs are finite: the two programs apply the same operations, with the same float words, in the same order, to
  each row.

  The three frame claims are the generated frames (the reference's is its generated run with the results dropped);
  the idealization rewrote nothing, so `preserves` has nothing to state.
-/
import proofs.«122258_j29265907155226_2_alg».proof.Defs
import proofs.«122258_j29265907155226_2_alg».proof.Proof.Gen.Kernel
import proofs.«122258_j29265907155226_2_alg».proof.Proof.Gen.Kernel.Skeleton
import proofs.«122258_j29265907155226_2_alg».proof.Proof.Gen.Kernel.Launch
import proofs.«122258_j29265907155226_2_alg».proof.Proof.Gen.Kernel.Points
import proofs.«122258_j29265907155226_2_alg».proof.Proof.Gen.Kernel.Frame
import proofs.«122258_j29265907155226_2_alg».proof.Proof.Gen.KernelIdeal
import proofs.«122258_j29265907155226_2_alg».proof.Proof.Gen.KernelIdeal.Skeleton
import proofs.«122258_j29265907155226_2_alg».proof.Proof.Gen.KernelIdeal.Launch
import proofs.«122258_j29265907155226_2_alg».proof.Proof.Gen.KernelIdeal.Points
import proofs.«122258_j29265907155226_2_alg».proof.Proof.Gen.KernelIdeal.Frame
import proofs.«122258_j29265907155226_2_alg».proof.Proof.Gen.ReferenceIdeal
import proofs.«122258_j29265907155226_2_alg».proof.Proof.Gen.ReferenceIdeal.Run
import proofs.«122258_j29265907155226_2_alg».proof.Proof.Gen.ReferenceIdeal.Read
import proofs.«122258_j29265907155226_2_alg».proof.Proof.Gen.Pre_finite_inputs
import proofs.«122258_j29265907155226_2_alg».proof.Proof.KernelRun
import proofs.«122258_j29265907155226_2_alg».proof.Proof.Reference
import Idealize.ShloMosaic.Adequacy
import Idealize.ShloMosaic.Init

noncomputable section

namespace Cert.Proof

open Idealize.ShloMosaic Idealize.SL.Sem

/-- The kernel as printed runs, and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- On the extended reals the kernel's two returned arrays and the reference's are the specification's two results of
    the same four float arguments: the kernel's run ends there (`Kernel.run`), the reference's run ends at its
    composed term, which is the specification of ITS arguments (`Ref.result₁_eq`, `Ref.result₂_eq`), and the arguments
    agree. -/
theorem algebraic : Cert.algebraic_KernelIdeal_ReferenceIdeal := by
  intro m ρ m' ρ' _ hagree
  refine ⟨_, _, Cert.Interaction.Kernel.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · refine (Cert.Interaction.Ref.result₁_eq m' c).trans ?_
    rw [(hagree c).1, (hagree c).2.1, (hagree c).2.2.2.2.1, (hagree c).2.2.2.2.2]
  · refine (Cert.Interaction.Ref.result₂_eq m' c).trans ?_
    rw [(hagree c).1, (hagree c).2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
